-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x262144 : Shape := ⟨2, ![64, 262144]⟩
abbrev S_ : Shape := ⟨0, ![]⟩

class Facts : Prop where
  bcast_S_S64x262144 : S_.BroadcastsInDim S64x262144 (![] : Fin 0 → Fin S64x262144.rank)
  reducesTo_S64x262144_S_d0_1 : S64x262144.ReducesTo [0, 1] S_
  h_S_ : 0 < S_.numel

variable [Facts]

def fn {F : FTy → Type} [FloatOps F] (main_arg0 : FVec F S64x262144 .f32) (main_arg1 : FVec F S64x262144 .f32) : IVec S_ 1 :=
  let main_v0 : FVec F S64x262144 .f32 := Host.absf main_arg0
  let main_cst : FVec F S_ .f32 := constant S_ .f32 0x7F800000#32
  let main_v1 : FVec F S64x262144 .f32 := broadcastInDim S64x262144 ![] bcast_S_S64x262144 main_cst
  let main_v2 : IVec S64x262144 1 := cmpf .olt main_v0 main_v1
  let main_c : IVec S_ 1 := constantI S_ 1 1#1
  let main_v3 : IVec S_ 1 := (fun x v => Host.reduce IntOp.andi x v reducesTo_S64x262144_S_d0_1 h_S_) main_v2 main_c
  let main_v4 : FVec F S64x262144 .f32 := Host.absf main_arg1
  let main_cst_0 : FVec F S_ .f32 := constant S_ .f32 0x7F800000#32
  let main_v5 : FVec F S64x262144 .f32 := broadcastInDim S64x262144 ![] bcast_S_S64x262144 main_cst_0
  let main_v6 : IVec S64x262144 1 := cmpf .olt main_v4 main_v5
  let main_c_1 : IVec S_ 1 := constantI S_ 1 1#1
  let main_v7 : IVec S_ 1 := (fun x v => Host.reduce IntOp.andi x v reducesTo_S64x262144_S_d0_1 h_S_) main_v6 main_c_1
  let main_v8 : IVec S_ 1 := andi main_v3 main_v7
  main_v8
-- ==== Kernel.lean ====
abbrev S64x262144 : Shape := ⟨2, ![64, 262144]⟩
abbrev S64x128 : Shape := ⟨2, ![64, 128]⟩
abbrev S32x16384 : Shape := ⟨2, ![32, 16384]⟩
abbrev S32x128 : Shape := ⟨2, ![32, 128]⟩
abbrev S32x1 : Shape := ⟨2, ![32, 1]⟩
abbrev S32 : Shape := ⟨1, ![32]⟩
abbrev S64x1 : Shape := ⟨2, ![64, 1]⟩
abbrev S64 : Shape := ⟨1, ![64]⟩
abbrev S_ : Shape := ⟨0, ![]⟩

abbrev nBuf : Space → Nat
  | .hbm => 52
  | .vmem => 7
  | .smem => 0
  | _ => 0

abbrev bufTy : (tb : Table) → Fin (tcTables nBuf tb) → BufTy
  | .hbm, ⟨0, _⟩ => ⟨S64x262144, .f32⟩
  | .hbm, ⟨1, _⟩ => ⟨S64x262144, .f32⟩
  | .hbm, ⟨2, _⟩ => ⟨S64x128, .f32⟩
  | .hbm, ⟨3, _⟩ => ⟨S64x1, .f32⟩
  | .hbm, ⟨4, _⟩ => ⟨S64, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64x1, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .i1⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .i1⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S64x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v70 : BitVec 1 := Scalar.cmpi .eq arg1 c15_i32
  let v71 : BitVec 32 := Scalar.extui v70
  let c0_i32_33 : BitVec 32 := 0#32
  let v72 : BitVec 1 := Scalar.cmpi .ne v71 c0_i32_33
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x128_S32x1_0_3 : ∀ a, (![0, 3] : Fin 2 → Nat) a + S32x1.size a ≤ S32x128.size a
  h_S32x1 : 0 < S32x1.numel
  shapeCasts_S32x1_S32x1 : S32x1.ShapeCasts S32x1
  inb_S32x16384_S32x16384_0_0 : ∀ a, (![0, 0] : Fin 2 → Nat) a + S32x16384.size a ≤ S32x16384.size a
  h_S32x16384 : 0 < S32x16384.numel
  reduces_S32x16384_S32 : S32x16384.Reduces [1] S32
  shapeCasts_S32_S32x1 : S32.ShapeCasts S32x1
  natLt_1_32 : 1 < 32
  broadcasts_S32x1_S32x16384 : S32x1.Broadcasts S32x16384
  inb_S32x128_S32x1_0_4 : ∀ a, (![0, 4] : Fin 2 → Nat) a + S32x1.size a ≤ S32x128.size a
  inb_S32x128_S32x1_0_5 : ∀ a, (![0, 5] : Fin 2 → Nat) a + S32x1.size a ≤ S32x128.size a
  inb_S32x128_S32x1_0_0 : ∀ a, (![0, 0] : Fin 2 → Nat) a + S32x1.size a ≤ S32x128.size a
  inb_S32x128_S32x1_0_1 : ∀ a, (![0, 1] : Fin 2 → Nat) a + S32x1.size a ≤ S32x128.size a
  inb_S32x128_S32x1_0_2 : ∀ a, (![0, 2] : Fin 2 → Nat) a + S32x1.size a ≤ S32x128.size a
  inb_S32x128_S32x1_0_6 : ∀ a, (![0, 6] : Fin 2 → Nat) a + S32x1.size a ≤ S32x128.size a
  slices_S64x128_S64x1_0_0 : S64x128.Slices ![0, 0] S64x1
  shapeCasts_S64x1_S64 : S64x1.ShapeCasts S64
  slices_S64x128_S64x1_0_1 : S64x128.Slices ![0, 1] S64x1
  slices_S64x128_S64x1_0_2 : S64x128.Slices ![0, 2] S64x1
  slices_S64x128_S64x1_0_3 : S64x128.Slices ![0, 3] S64x1
  slices_S64x128_S64x1_0_4 : S64x128.Slices ![0, 4] S64x1
  slices_S64x128_S64x1_0_5 : S64x128.Slices ![0, 5] S64x1
  slices_S64x128_S64x1_0_6 : S64x128.Slices ![0, 6] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S64x262144.size a
  hwx0_0 : ∀ i : grid0.Coords, EltTy.bits .f32 = 32 ∨ (Rect.block (s := S64x262144) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S64x262144.size a
  hwx0_1 : ∀ i : grid0.Coords, EltTy.bits .f32 = 32 ∨ (Rect.block (s := S64x262144) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x128.size a
  hwx0_2 : ∀ i : grid0.Coords, EltTy.bits .f32 = 32 ∨ (Rect.block (s := S64x128) S32x128.size (cc0_transform_2 i) (hinb0_2 i)).WholeWords (EltTy.packing .f32)

variable [Facts₀]

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x262144 : Shape := ⟨2, ![64, 262144]⟩
abbrev S_ : Shape := ⟨0, ![]⟩
abbrev S64 : Shape := ⟨1, ![64]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x262144, .f32⟩
  | .hbm, ⟨1, _⟩ => ⟨S64x262144, .f32⟩
  | .hbm, ⟨2, _⟩ => ⟨S_, .f32⟩
  | .hbm, ⟨3, _⟩ => ⟨S64x262144, .f32⟩
  | .hbm, ⟨4, _⟩ => ⟨S64x262144, .i1⟩
  | .hbm, ⟨5, _⟩ => ⟨S64x262144, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S_, .f32⟩
  | .hbm, ⟨10, _⟩ => ⟨S64x262144, .f32⟩
  | .hbm, ⟨11, _⟩ => ⟨S64x262144, .i1⟩
  | .hbm, ⟨12, _⟩ => ⟨S_, .i1⟩
  | .hbm, ⟨13, _⟩ => ⟨S64, .i1⟩
  | .hbm, ⟨14, _⟩ => ⟨S64x1, .i1⟩
  | .hbm, ⟨15, _⟩ => ⟨S64x262144, .f32⟩
  | .hbm, ⟨16, _⟩ => ⟨S64x262144, .i1⟩
  | .hbm, ⟨17, _⟩ => ⟨S64x262144, .f32⟩
  | .hbm, ⟨18, _⟩ => ⟨S_, .f32⟩
  | .hbm, ⟨19, _⟩ => ⟨S64x262144, .f32⟩
  | .hbm, ⟨20, _⟩ => ⟨S64x262144, .i1⟩
  | .hbm, ⟨21, _⟩ => ⟨S64x262144, .f32⟩
  | .hbm, ⟨22, _⟩ => ⟨S64x262144, .i1⟩
  | .hbm, ⟨23, _⟩ => ⟨S64x262144, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x262144, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .i1⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | _, _ => ⟨S64x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_cst_13 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S_S64x262144 : S_.BroadcastsInDim S64x262144 (![] : Fin 0 → Fin S64x262144.rank)
  reducesTo_S64x262144_S64_d1 : S64x262144.ReducesTo [1] S64
  h_S_ : 0 < S_.numel
  bcast_S64_S64x1_0 : S64.BroadcastsInDim S64x1 (![0] : Fin 1 → Fin S64x1.rank)
  bcast_S64x1_S64x262144_0_1 : S64x1.BroadcastsInDim S64x262144 (![0, 1] : Fin 2 → Fin S64x262144.rank)
  bcast_S_S64 : S_.BroadcastsInDim S64 (![] : Fin 0 → Fin S64.rank)
  reducesTo_S64_S_d0 : S64.ReducesTo [0] S_

variable [Facts₀]

class Facts : Prop extends Facts₀ where

variable [Facts]
-- ==== Proof.Spec.lean ====
/-
  The loss both programs compute, as ONE function of the two argument arrays over the extended reals.

  Per row R of the 64 rows, over a set s of the 262144 columns: the sum of an array's row, the sum of the
  products p·t, the maximum of t (the supremum, bottom on the empty set), the number of columns with p > 1/2,
  the number of columns where t equals a value M, and the number of columns with both. Counts are sums of
  indicators, each 0 or 1.

  With M the row's maximum of t over all columns, the number of columns on which the hard prediction (p > 1/2)
  agrees with the hard target (t = M, or nothing when no t is positive) is
      262144 - #(p > 1/2) - #(t = M) + 2·#(p > 1/2 and t = M)   when M > 0,
      262144 - #(p > 1/2)                                        otherwise,
  the row's score is (Σ p·t + 1) / (Σ p + Σ t - Σ p·t + 1), replaced by 1 when every column agrees, and the
  loss is the sum over the rows of 1 - score.
-/
import Idealize.ShloMosaic.PureOps.Ideal
import Idealize.ShloMosaic.PureOps.Ideal.Laws
import Idealize.ShloMosaic.Lib.ValueIdx

noncomputable section

namespace RowStats

open Idealize.ShloMosaic ValueIdx Finset

/-- An argument array at the ideal instance: 64 rows of 262144 extended reals. -/
abbrev Arr : Type := (⟨2, ![64, 262144]⟩ : Shape).Idx → EReal

/-- The threshold one half, as both programs spell it. -/
def half : EReal := Ideal.ofBits .f32 0x3F000000#32

/-- The indicator of a proposition as an extended real: 1 when it holds, 0 when it does not. -/
def ind (b : Prop) : EReal := by classical exact if b then 1 else 0

theorem ind_of {b : Prop} (h : b) : ind b = 1 := by unfold ind; classical exact if_pos h

theorem ind_of_not {b : Prop} (h : ¬b) : ind b = 0 := by unfold ind; classical exact if_neg h

/-- With any decidability instance, the indicator is the if-then-else on it. -/
theorem ind_eq_ite (b : Prop) [Decidable b] : ind b = if b then 1 else 0 := by
  by_cases h : b
  · rw [ind_of h, if_pos h]
  · rw [ind_of_not h, if_neg h]

/-- The sum of row R of X over the columns in s. -/
def sumOf (X : Arr) (R : Fin 64) (s : Finset (Fin 262144)) : EReal := ∑ c ∈ s, X (ix2 R c)

/-- The sum of the products p·t of row R over the columns in s. -/
def sumProd (P T : Arr) (R : Fin 64) (s : Finset (Fin 262144)) : EReal := ∑ c ∈ s, P (ix2 R c) * T (ix2 R c)

/-- The maximum of row R of T over the columns in s (bottom when s is empty). -/
def maxOf (T : Arr) (R : Fin 64) (s : Finset (Fin 262144)) : EReal := s.sup fun c => T (ix2 R c)

/-- The number of columns in s where row R of P exceeds one half. -/
def cntHard (P : Arr) (R : Fin 64) (s : Finset (Fin 262144)) : EReal := ∑ c ∈ s, ind (half < P (ix2 R c))

/-- The number of columns in s where row R of T equals M. -/
def cntAt (T : Arr) (R : Fin 64) (s : Finset (Fin 262144)) (M : EReal) : EReal := ∑ c ∈ s, ind (T (ix2 R c) = M)

/-- The number of columns in s where row R of P exceeds one half and row R of T equals M. -/
def cntBoth (P T : Arr) (R : Fin 64) (s : Finset (Fin 262144)) (M : EReal) : EReal :=
  ∑ c ∈ s, ind (half < P (ix2 R c)) * ind (T (ix2 R c) = M)

/-- The number of columns of row R on which the hard prediction agrees with the hard target. -/
def agree (P T : Arr) (R : Fin 64) : EReal :=
  if 0 < maxOf T R univ then
    262144 - cntHard P R univ - cntAt T R univ (maxOf T R univ) + 2 * cntBoth P T R univ (maxOf T R univ)
  else 262144 - cntHard P R univ

/-- The smoothed soft overlap score of row R. -/
def score (P T : Arr) (R : Fin 64) : EReal :=
  Ideal.div (sumProd P T R univ + 1) (sumOf P R univ + sumOf T R univ - sumProd P T R univ + 1)

/-- One row's term of the loss. -/
def lossRow (P T : Arr) (R : Fin 64) : EReal := 1 - (if agree P T R = 262144 then 1 else score P T R)

/-- The loss: the sum of the rows' terms. -/
def loss (P T : Arr) : EReal := 0 + ∑ j : (⟨1, ![64]⟩ : Shape).Idx, lossRow P T (j 0)

/-! The float words the two programs spell, as the extended reals they denote. -/

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_two : Ideal.ofBits .f32 0x40000000#32 = 2 := by
  simp [Ideal.ofBits, Ideal.ieee, -EReal.coe_mul]; norm_num
  first | rfl | norm_cast | exact EReal.coe_ofNat 2

theorem ofBits_cols : Ideal.ofBits .f32 0x48800000#32 = 262144 := by
  simp [Ideal.ofBits, Ideal.ieee, -EReal.coe_mul]; norm_num
  first | rfl | norm_cast | exact EReal.coe_ofNat 262144

theorem ofBits_negInf : Ideal.ofBits .f32 0xFF800000#32 = ⊥ := by
  simp [Ideal.ofBits, Ideal.ieee]

end RowStats

end
-- ==== Proof.Counting.lean ====
/-
  Counting with indicators over the extended reals, and the running maximum with its tie counts.

  (1) For two decidable properties A and B of the points of a finite set, the indicator of "A and B agree" is
      1 - [A] - [B] + 2·[A][B]; summed, the number of agreements is n - #A - #B + 2·#(A and B).
  (2) A quotient x / 262144 is 1 exactly when x is 262144.
  (3) Over a disjoint union of two finite sets the maximum is the larger of the two maxima, and the number of
      points attaining it is: the second set's count when its maximum is strictly larger, the sum of both counts
      when the two maxima tie, and the first set's count otherwise. The same with every point weighted by a
      second indicator.
-/
import proofs.«110834_j10900626997865_2_alg».proof.Proof.Spec

noncomputable section

namespace RowStats

open Finset

variable {ι : Type} [DecidableEq ι]

/-- The number of points of s where f equals M. -/
def countAt (f : ι → EReal) (s : Finset ι) (M : EReal) : EReal := ∑ c ∈ s, ind (f c = M)

/-- The number of points of s where q holds and f equals M. -/
def countBoth (q : ι → Prop) (f : ι → EReal) (s : Finset ι) (M : EReal) : EReal :=
  ∑ c ∈ s, ind (q c) * ind (f c = M)

/-- A fold of max from bottom is the supremum. -/
theorem fold_max_bot_eq_sup (f : ι → EReal) (s : Finset ι) : s.fold max ⊥ f = s.sup f := by
  induction s using Finset.induction_on with
  | empty => simp
  | insert a s ha ih => rw [Finset.fold_insert ha, Finset.sup_insert, ih]

/-- The maximum over a union is the larger of the two maxima. -/
theorem sup_union_max (f : ι → EReal) (s t : Finset ι) : (s ∪ t).sup f = max (s.sup f) (t.sup f) := by
  rw [Finset.sup_union]

/-- No point of s attains a value strictly above the maximum over s. -/
theorem countAt_eq_zero_of_sup_lt (f : ι → EReal) (s : Finset ι) (M : EReal) (hM : s.sup f < M) :
    countAt f s M = 0 := by
  unfold countAt
  apply Finset.sum_eq_zero
  intro c hc
  apply ind_of_not
  intro hEq
  have hle : f c ≤ s.sup f := Finset.le_sup hc
  rw [hEq] at hle
  exact absurd hM (not_lt.mpr hle)

/-- The weighted version: no point of s attains a value strictly above the maximum over s. -/
theorem countBoth_eq_zero_of_sup_lt (q : ι → Prop) (f : ι → EReal) (s : Finset ι) (M : EReal)
    (hM : s.sup f < M) : countBoth q f s M = 0 := by
  unfold countBoth
  apply Finset.sum_eq_zero
  intro c hc
  have hne : ¬ f c = M := by
    intro hEq
    have hle : f c ≤ s.sup f := Finset.le_sup hc
    rw [hEq] at hle
    exact absurd hM (not_lt.mpr hle)
  rw [ind_of_not hne, mul_zero]

/-- The count of points attaining the maximum, over a disjoint union, from the two parts' maxima and counts. -/
theorem countAt_union (f : ι → EReal) (s t : Finset ι) (h : Disjoint s t) :
    countAt f (s ∪ t) (max (s.sup f) (t.sup f)) =
      if s.sup f < t.sup f then countAt f t (t.sup f)
      else if t.sup f = s.sup f then countAt f s (s.sup f) + countAt f t (t.sup f)
      else countAt f s (s.sup f) := by
  have hsplit : ∀ M, countAt f (s ∪ t) M = countAt f s M + countAt f t M := by
    intro M
    unfold countAt
    exact Finset.sum_union h
  rw [hsplit]
  by_cases h1 : s.sup f < t.sup f
  · rw [if_pos h1, max_eq_right h1.le, countAt_eq_zero_of_sup_lt f s _ h1, zero_add]
  · rw [if_neg h1]
    by_cases h2 : t.sup f = s.sup f
    · rw [if_pos h2, h2, max_self]
    · rw [if_neg h2]
      have h3 : t.sup f < s.sup f := lt_of_le_of_ne (not_lt.mp h1) h2
      rw [max_eq_left h3.le, countAt_eq_zero_of_sup_lt f t _ h3, add_zero]

/-- The same count with every point weighted by the indicator of q. -/
theorem countBoth_union (q : ι → Prop) (f : ι → EReal) (s t : Finset ι) (h : Disjoint s t) :
    countBoth q f (s ∪ t) (max (s.sup f) (t.sup f)) =
      if s.sup f < t.sup f then countBoth q f t (t.sup f)
      else if t.sup f = s.sup f then countBoth q f s (s.sup f) + countBoth q f t (t.sup f)
      else countBoth q f s (s.sup f) := by
  have hsplit : ∀ M, countBoth q f (s ∪ t) M = countBoth q f s M + countBoth q f t M := by
    intro M
    unfold countBoth
    exact Finset.sum_union h
  rw [hsplit]
  by_cases h1 : s.sup f < t.sup f
  · rw [if_pos h1, max_eq_right h1.le, countBoth_eq_zero_of_sup_lt q f s _ h1, zero_add]
  · rw [if_neg h1]
    by_cases h2 : t.sup f = s.sup f
    · rw [if_pos h2, h2, max_self]
    · rw [if_neg h2]
      have h3 : t.sup f < s.sup f := lt_of_le_of_ne (not_lt.mp h1) h2
      rw [max_eq_left h3.le, countBoth_eq_zero_of_sup_lt q f t _ h3, add_zero]

/-- An indicator is the coercion of a real number (its real part, 0 or 1). -/
theorem coe_toReal_ind (b : Prop) : (((ind b).toReal : ℝ) : EReal) = ind b := by
  by_cases hb : b
  · rw [ind_of hb]; simp
  · rw [ind_of_not hb]; simp

theorem toReal_ind_of {b : Prop} (hb : b) : (ind b).toReal = 1 := by
  rw [ind_of hb]; simp

theorem toReal_ind_of_not {b : Prop} (hb : ¬b) : (ind b).toReal = 0 := by
  rw [ind_of_not hb]; simp

/-- The coercion of a finite sum of reals is the sum of the coercions. -/
theorem coe_sum_real (g : ι → ℝ) (s : Finset ι) :
    ((∑ c ∈ s, g c : ℝ) : EReal) = ∑ c ∈ s, (g c : EReal) := by
  induction s using Finset.induction_on with
  | empty => simp
  | insert a s ha ih => rw [Finset.sum_insert ha, Finset.sum_insert ha, EReal.coe_add, ih]

/-- A sum of indicators is the coercion of the real sum of their real parts. -/
theorem sum_ind_eq_coe (P : ι → Prop) (s : Finset ι) :
    ∑ c ∈ s, ind (P c) = ((∑ c ∈ s, (ind (P c)).toReal : ℝ) : EReal) := by
  rw [coe_sum_real]
  exact Finset.sum_congr rfl (fun c _ => (coe_toReal_ind _).symm)

/-- A sum of products of indicators is the coercion of the real sum of the products of their real parts. -/
theorem sum_ind_mul_eq_coe (P Q : ι → Prop) (s : Finset ι) :
    ∑ c ∈ s, ind (P c) * ind (Q c)
      = ((∑ c ∈ s, (ind (P c)).toReal * (ind (Q c)).toReal : ℝ) : EReal) := by
  rw [coe_sum_real]
  apply Finset.sum_congr rfl
  intro c _
  rw [EReal.coe_mul, coe_toReal_ind, coe_toReal_ind]

/-- Pointwise over the reals: the indicator of agreement is 1 - a - b + 2ab. -/
theorem toReal_ind_agree (A B : Prop) :
    (ind (ind A = ind B)).toReal
      = 1 - (ind A).toReal - (ind B).toReal + 2 * ((ind A).toReal * (ind B).toReal) := by
  have h01 : ¬ ((0 : EReal) = 1) := zero_ne_one
  have h10 : ¬ ((1 : EReal) = 0) := one_ne_zero
  by_cases hA : A <;> by_cases hB : B
  · rw [toReal_ind_of hA, toReal_ind_of hB, ind_of hA, ind_of hB, toReal_ind_of rfl]; norm_num
  · rw [toReal_ind_of hA, toReal_ind_of_not hB, ind_of hA, ind_of_not hB, toReal_ind_of_not h10]; norm_num
  · rw [toReal_ind_of_not hA, toReal_ind_of hB, ind_of_not hA, ind_of hB, toReal_ind_of_not h01]; norm_num
  · rw [toReal_ind_of_not hA, toReal_ind_of_not hB, ind_of_not hA, ind_of_not hB, toReal_ind_of rfl]; norm_num

/-- Pointwise over the reals: the indicator of failure is 1 - a. -/
theorem toReal_ind_none (A : Prop) :
    (ind (ind A = 0)).toReal = 1 - (ind A).toReal := by
  have h10 : ¬ ((1 : EReal) = 0) := one_ne_zero
  by_cases hA : A
  · rw [toReal_ind_of hA, ind_of hA, toReal_ind_of_not h10]; norm_num
  · rw [toReal_ind_of_not hA, ind_of_not hA, toReal_ind_of rfl]; norm_num

/-- The number of points on which two properties agree. -/
theorem sum_ind_agree (A B : ι → Prop) (s : Finset ι) :
    ∑ c ∈ s, ind (ind (A c) = ind (B c))
      = (s.card : EReal) - ∑ c ∈ s, ind (A c) - ∑ c ∈ s, ind (B c) + 2 * ∑ c ∈ s, ind (A c) * ind (B c) := by
  have e1 := sum_ind_eq_coe (fun c => ind (A c) = ind (B c)) s
  have e5 : (s.card : EReal) = (((s.card : ℝ)) : EReal) := EReal.coe_natCast.symm
  have e6 : (2 : EReal) = ((2 : ℝ) : EReal) := by norm_cast
  rw [e1, sum_ind_eq_coe A s, sum_ind_eq_coe B s, sum_ind_mul_eq_coe A B s, e5, e6,
    ← EReal.coe_sub, ← EReal.coe_sub, ← EReal.coe_mul, ← EReal.coe_add, EReal.coe_eq_coe_iff]
  rw [Finset.card_eq_sum_ones, Nat.cast_sum, Finset.mul_sum, ← Finset.sum_sub_distrib,
    ← Finset.sum_sub_distrib, ← Finset.sum_add_distrib]
  apply Finset.sum_congr rfl
  intro c _
  rw [toReal_ind_agree, Nat.cast_one]

/-- The number of points on which a property fails. -/
theorem sum_ind_none (A : ι → Prop) (s : Finset ι) :
    ∑ c ∈ s, ind (ind (A c) = 0) = (s.card : EReal) - ∑ c ∈ s, ind (A c) := by
  have e1 := sum_ind_eq_coe (fun c => ind (A c) = 0) s
  have e5 : (s.card : EReal) = (((s.card : ℝ)) : EReal) := EReal.coe_natCast.symm
  rw [e1, sum_ind_eq_coe A s, e5, ← EReal.coe_sub, EReal.coe_eq_coe_iff]
  rw [Finset.card_eq_sum_ones, Nat.cast_sum, ← Finset.sum_sub_distrib]
  apply Finset.sum_congr rfl
  intro c _
  rw [toReal_ind_none, Nat.cast_one]

/-- A quotient by 262144 is one exactly when the dividend is 262144. -/
theorem div_cols_eq_one_iff (x : EReal) : Idealize.ShloMosaic.Ideal.div x 262144 = 1 ↔ x = 262144 := by
  have hc : (262144 : EReal) = ((262144 : ℝ) : EReal) := by norm_cast
  have hpos : (0 : EReal) < ((1 / 262144 : ℝ) : EReal) := EReal.coe_pos.mpr (by norm_num)
  rw [hc, Idealize.ShloMosaic.Ideal.div_coe (by norm_num : (262144 : ℝ) ≠ 0)]
  induction x using EReal.rec with
  | bot =>
    rw [EReal.bot_mul_of_pos hpos]
    constructor
    · intro hx; exact absurd hx (EReal.bot_ne_coe 1)
    · intro hx; exact absurd hx (EReal.bot_ne_coe 262144)
  | coe r =>
    rw [← EReal.coe_mul, EReal.coe_eq_one, EReal.coe_eq_coe_iff]
    constructor
    · intro hx; linarith
    · intro hx; rw [hx]; norm_num
  | top =>
    rw [EReal.top_mul_of_pos hpos]
    constructor
    · intro hx; exact absurd hx (EReal.top_ne_coe 1)
    · intro hx; exact absurd hx (EReal.top_ne_coe 262144)

end RowStats

end
-- ==== Proof.RefValue.lean ====
/-
  The reference program's result is the specification's loss.

  Row by row: the row maximum of the targets is the supremum over the columns; the disjunction of the comparisons
  "target is positive" holds exactly when that supremum is positive; the number of columns on which the two hard
  masks agree is the count of the specification; the quotient of the smoothed sums is the score; and the sum over
  the rows of one minus the selected score is the loss.
-/
import proofs.«110834_j10900626997865_2_alg».proof.Proof.RefRead
import proofs.«110834_j10900626997865_2_alg».proof.Proof.Counting
import Idealize.ShloMosaic.PureOps.Reduce
import Idealize.ShloMosaic.Lib.ValueIdx
import Idealize.ShloMosaic.Lib.Affine
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open RowStats Finset

/-- An argument array of the reference at the ideal instance. -/
abbrev ArgArr : Type := (⟨S64x262144, .f32⟩ : BufTy).Contents (Elt Ideal)

/-- The index the reduction inserts a column into is the pair of the row and the column. -/
theorem lift_eq_ix2 (h : S64x262144.Reduces [1] S64) (R : Fin 64) (k : Fin 262144) :
    h.lift (ix1 R) k = ix2 R k :=
  funext fun a => Fin.ext (by match a with | ⟨0, _⟩ => rfl | ⟨1, _⟩ => rfl)

/-- Reading an array along the inserted indices of row R is reading the row. -/
theorem comp_lift {α : Type} (h : S64x262144.Reduces [1] S64) (y : S64x262144.Idx → α) (R : Fin 64) :
    (y ∘ h.lift (ix1 R)) = fun c : Fin 262144 => y (ix2 R c) :=
  funext fun k => congrArg y (lift_eq_ix2 h R k)

/-- The row maximum the reference takes is the supremum of the row. -/
theorem rowMax_read (x1 : ArgArr) (R : Fin 64) : val_main_v3 (F := Ideal) x1 (ix1 R) = maxOf x1 R univ := by
  have h : S64x262144.Reduces [1] S64 := by decide
  unfold val_main_v3
  rw [Host.reduce_eq_fold_single (FloatOps.maximumf (F := Ideal) (φ := .f32)) x1 _ reducesTo_S64x262144_S64_d1 h h_S_ (ix1 R),
    comp_lift h x1 R]
  show (univ : Finset (Fin 262144)).fold max (Ideal.ofBits .f32 0xFF800000#32) (fun c => x1 (ix2 R c)) = _
  rw [ofBits_negInf, fold_max_bot_eq_sup]
  rfl

/-- A fold of "or" from the zero bit is one exactly when some bit is one. -/
theorem fold_ori_eq_one {ι : Type} [DecidableEq ι] (f : ι → BitVec 1) (s : Finset ι) :
    s.fold IntOp.ori 0#1 f = 1#1 ↔ ∃ c ∈ s, f c = 1#1 := by
  induction s using Finset.induction_on with
  | empty => simp
  | insert a s ha ih =>
    rw [Finset.fold_insert ha, IntOp.ori_eq_one, ih]
    constructor
    · rintro (h | ⟨c, hc, h⟩)
      · exact ⟨a, Finset.mem_insert_self a s, h⟩
      · exact ⟨c, Finset.mem_insert_of_mem hc, h⟩
    · rintro ⟨c, hc, h⟩
      rcases Finset.mem_insert.1 hc with rfl | hc
      · exact Or.inl h
      · exact Or.inr ⟨c, hc, h⟩

/-- The bit of a decided proposition is one exactly when the proposition holds. -/
theorem ofBool_decide_eq_one (b : Prop) [Decidable b] : BitVec.ofBool (decide b) = 1#1 ↔ b := by
  by_cases h : b
  · simp [h]
  · simp [h]

/-- The comparison "target is positive" at a point. -/
theorem v6_read (x1 : ArgArr) (i : S64x262144.Idx) :
    val_main_v6 (F := Ideal) x1 i = BitVec.ofBool (decide (0 < x1 i)) := by
  rw [val_main_v6_apply, val_main_v5_apply, val_main_cst_1_apply, Ideal.ofBits_def, ofBits_zero]
  rfl

/-- The disjunction over a row of "target is positive" holds exactly when the row maximum is positive. -/
theorem anyPos_read (x1 : ArgArr) (R : Fin 64) :
    val_main_v7 (F := Ideal) x1 (ix1 R) = 1#1 ↔ 0 < maxOf x1 R univ := by
  have h : S64x262144.Reduces [1] S64 := by decide
  unfold val_main_v7
  generalize hy : val_main_v6 (F := Ideal) x1 = y
  rw [Host.reduce_eq_fold_single (IntOp.ori (w := 1)) y _ reducesTo_S64x262144_S64_d1 h h_S_ (ix1 R), comp_lift h y R]
  show (univ : Finset (Fin 262144)).fold IntOp.ori 0#1 (fun c => y (ix2 R c)) = 1#1 ↔ _
  rw [fold_ori_eq_one]
  subst hy
  unfold maxOf
  rw [Finset.lt_sup_iff]
  refine exists_congr fun c => and_congr_right fun _ => ?_
  rw [v6_read, ofBool_decide_eq_one]

/-- The unsigned reading of the bit of a decided proposition is its indicator. -/
theorem uitofp_ofBool (b : Prop) [Decidable b] :
    FloatOps.uitofp (F := Ideal) .f32 (BitVec.ofBool (decide b)) = ind b := by
  show (((BitVec.ofBool (decide b)).toNat : ℝ) : EReal) = ind b
  by_cases h : b
  · rw [ind_of h, decide_eq_true h]; simp
  · rw [ind_of_not h, decide_eq_false h]; simp

/-- The hard prediction at a point: the indicator of "probability above one half". -/
theorem v2_read (x0 : ArgArr) (i : S64x262144.Idx) :
    val_main_v2 (F := Ideal) x0 i = ind (half < x0 i) := by
  rw [val_main_v2_apply, val_main_v1_apply, val_main_v0_apply, val_main_cst_apply, Ideal.ofBits_def]
  exact uitofp_ofBool (half < x0 i)

/-- The row maximum, broadcast back along the row. -/
theorem v9_read (x1 : ArgArr) (R : Fin 64) (c : Fin 262144) :
    val_main_v9 (F := Ideal) x1 (ix2 R c) = maxOf x1 R univ := by
  rw [val_main_v9_apply, val_main_v4_apply, ← rowMax_read]
  exact congrArg _ (funext fun a => Fin.ext (by match a with | ⟨0, _⟩ => rfl))

/-- The indicator of "target equals the row maximum" at a point. -/
theorem v11_read (x1 : ArgArr) (R : Fin 64) (c : Fin 262144) :
    val_main_v11 (F := Ideal) x1 (ix2 R c) = ind (x1 (ix2 R c) = maxOf x1 R univ) := by
  rw [val_main_v11_apply, val_main_v10_apply, v9_read]
  exact uitofp_ofBool (x1 (ix2 R c) = maxOf x1 R univ)

/-- The row's disjunction, broadcast back along the row. -/
theorem call0_v0_read (x1 : ArgArr) (R : Fin 64) (c : Fin 262144) :
    val_main_call0_v0 (F := Ideal) x1 (ix2 R c) = val_main_v7 (F := Ideal) x1 (ix1 R) := by
  rw [val_main_call0_v0_apply, val_main_v8_apply]
  exact congrArg _ (funext fun a => Fin.ext (by match a with | ⟨0, _⟩ => rfl))

/-- The zero array. -/
theorem v12_read (i : S64x262144.Idx) : val_main_v12 (F := Ideal) i = 0 := by
  rw [val_main_v12_apply, val_main_cst_2_apply, Ideal.ofBits_def, ofBits_zero]

/-- The hard target at a point of a row whose maximum is positive. -/
theorem v13_read_pos (x1 : ArgArr) (R : Fin 64) (c : Fin 262144) (hM : 0 < maxOf x1 R univ) :
    val_main_v13 (F := Ideal) x1 (ix2 R c) = ind (x1 (ix2 R c) = maxOf x1 R univ) := by
  rw [val_main_v13_apply, call0_v0_read, (anyPos_read x1 R).2 hM, select_one, v11_read]

/-- The hard target at a point of a row with no positive target: zero. -/
theorem v13_read_none (x1 : ArgArr) (R : Fin 64) (c : Fin 262144) (hM : ¬ 0 < maxOf x1 R univ) :
    val_main_v13 (F := Ideal) x1 (ix2 R c) = 0 := by
  rw [val_main_v13_apply, call0_v0_read, eq_zero_of_ne_one (fun h => hM ((anyPos_read x1 R).1 h)), select_zero, v12_read]

/-- The indicator of agreement at a point. -/
theorem v15_read (x0 x1 : ArgArr) (i : S64x262144.Idx) :
    val_main_v15 (F := Ideal) x0 x1 i = ind (ind (half < x0 i) = val_main_v13 (F := Ideal) x1 i) := by
  rw [val_main_v15_apply, val_main_v14_apply, v2_read]
  exact uitofp_ofBool (ind (half < x0 i) = val_main_v13 (F := Ideal) x1 i)

/-- The index a row sum reads a column at is the pair of the row and the column. -/
theorem idx_row (R : Fin 64) (k : Fin 262144) : idx_main_v16 (ix1 R) k = ix2 R k :=
  funext fun a => Fin.ext (by match a with | ⟨0, _⟩ => rfl | ⟨1, _⟩ => rfl)

/-- The number of columns is 262144. -/
theorem card_cols : (((univ : Finset (Fin 262144)).card : ℕ) : EReal) = 262144 := by
  rw [Finset.card_univ, Fintype.card_fin, Nat.cast_ofNat]

/-- The number of columns of a row on which the two hard masks agree. -/
theorem agree_read (x0 x1 : ArgArr) (R : Fin 64) :
    val_main_v16 (F := Ideal) x0 x1 (ix1 R) = agree x0 x1 R := by
  rw [val_main_v16_apply, val_main_cst_3_apply, Ideal.ofBits_def, ofBits_zero, zero_add]
  unfold agree
  by_cases hM : 0 < maxOf x1 R univ
  · rw [if_pos hM]
    have e : ∀ k : Fin 262144, val_main_v15 (F := Ideal) x0 x1 (idx_main_v16 (ix1 R) k)
        = ind (ind (half < x0 (ix2 R k)) = ind (x1 (ix2 R k) = maxOf x1 R univ)) := fun k => by
      rw [idx_row, v15_read, v13_read_pos x1 R k hM]
    rw [Finset.sum_congr rfl fun k _ => e k,
      sum_ind_agree (fun k : Fin 262144 => half < x0 (ix2 R k)) (fun k => x1 (ix2 R k) = maxOf x1 R univ) univ, card_cols]
    rfl
  · rw [if_neg hM]
    have e : ∀ k : Fin 262144, val_main_v15 (F := Ideal) x0 x1 (idx_main_v16 (ix1 R) k)
        = ind (ind (half < x0 (ix2 R k)) = 0) := fun k => by
      rw [idx_row, v15_read, v13_read_none x1 R k hM]
    rw [Finset.sum_congr rfl fun k _ => e k,
      sum_ind_none (fun k : Fin 262144 => half < x0 (ix2 R k)) univ, card_cols]
    rfl

/-- The three row sums. -/
theorem v20_read (x0 x1 : ArgArr) (R : Fin 64) : val_main_v20 (F := Ideal) x0 x1 (ix1 R) = sumProd x0 x1 R univ := by
  rw [val_main_v20_apply, val_main_cst_5_apply, Ideal.ofBits_def, ofBits_zero, zero_add]
  refine Finset.sum_congr rfl fun k _ => ?_
  have e : idx_main_v20 (ix1 R) k = ix2 R k :=
    funext fun a => Fin.ext (by match a with | ⟨0, _⟩ => rfl | ⟨1, _⟩ => rfl)
  rw [val_main_v19_apply, Ideal.mulf_def, e]

theorem v21_read (x0 : ArgArr) (R : Fin 64) : val_main_v21 (F := Ideal) x0 (ix1 R) = sumOf x0 R univ := by
  rw [val_main_v21_apply, val_main_cst_6_apply, Ideal.ofBits_def, ofBits_zero, zero_add]
  exact Finset.sum_congr rfl fun k _ => congrArg x0 (idx_row R k)

theorem v22_read (x1 : ArgArr) (R : Fin 64) : val_main_v22 (F := Ideal) x1 (ix1 R) = sumOf x1 R univ := by
  rw [val_main_v22_apply, val_main_cst_7_apply, Ideal.ofBits_def, ofBits_zero, zero_add]
  exact Finset.sum_congr rfl fun k _ => congrArg x1 (idx_row R k)

/-- A broadcast of the word of one is one. -/
theorem one_read (i : S64.Idx) : val_main_v25 (F := Ideal) i = 1 ∧ val_main_v27 (F := Ideal) i = 1
    ∧ val_main_v30 (F := Ideal) i = 1 ∧ val_main_v32 (F := Ideal) i = 1 ∧ val_main_v34 (F := Ideal) i = 1 := by
  refine ⟨?_, ?_, ?_, ?_, ?_⟩
  · rw [val_main_v25_apply, val_main_cst_8_apply, Ideal.ofBits_def, ofBits_one]
  · rw [val_main_v27_apply, val_main_cst_9_apply, Ideal.ofBits_def, ofBits_one]
  · rw [val_main_v30_apply, val_main_cst_10_apply, Ideal.ofBits_def, ofBits_one]
  · rw [val_main_v32_apply, val_main_cst_11_apply, Ideal.ofBits_def, ofBits_one]
  · rw [val_main_v34_apply, val_main_cst_12_apply, Ideal.ofBits_def, ofBits_one]

/-- The smoothed soft overlap score of a row. -/
theorem score_read (x0 x1 : ArgArr) (R : Fin 64) : val_main_v29 (F := Ideal) x0 x1 (ix1 R) = score x0 x1 R := by
  rw [val_main_v29_apply, val_main_v26_apply, val_main_v28_apply, val_main_v24_apply, val_main_v23_apply,
    v20_read, v21_read, v22_read, (one_read (ix1 R)).1, (one_read (ix1 R)).2.1]
  rfl

/-- The comparison "accuracy is one" holds exactly when every column agrees. -/
theorem v31_read (x0 x1 : ArgArr) (R : Fin 64) :
    val_main_v31 (F := Ideal) x0 x1 (ix1 R) = 1#1 ↔ agree x0 x1 R = 262144 := by
  rw [val_main_v31_apply, val_main_v18_apply, val_main_v17_apply, val_main_cst_4_apply, Ideal.ofBits_def, ofBits_cols,
    agree_read, (one_read (ix1 R)).2.2.1, Ideal.hostDivf_def]
  show BitVec.ofBool (decide (Ideal.div (agree x0 x1 R) 262144 = 1)) = 1#1 ↔ _
  rw [ofBool_decide_eq_one, div_cols_eq_one_iff]

/-- One row's term of the loss. -/
theorem lossRow_read (x0 x1 : ArgArr) (R : Fin 64) : val_main_v35 (F := Ideal) x0 x1 (ix1 R) = lossRow x0 x1 R := by
  rw [val_main_v35_apply, val_main_v33_apply, (one_read (ix1 R)).2.2.2.2, (one_read (ix1 R)).2.2.2.1, score_read,
    Ideal.subf_def]
  unfold lossRow
  by_cases h : agree x0 x1 R = 262144
  · rw [(v31_read x0 x1 R).2 h, select_one, if_pos h]
  · rw [eq_zero_of_ne_one (fun e => h ((v31_read x0 x1 R).1 e)), select_zero, if_neg h]

theorem ref_eq_loss (x0 x1 : (⟨Cert.ReferenceIdeal.S64x262144, .f32⟩ : BufTy).Contents (Elt Ideal)) :
    Cert.ReferenceIdeal.ReadP.val_main_v36 (F := Ideal) x0 x1 = fun _ => RowStats.loss x0 x1 := by
  funext i
  rw [val_main_v36_apply, val_main_cst_13_apply, Ideal.ofBits_def, ofBits_zero]
  unfold loss
  refine congrArg (0 + ·) (Finset.sum_congr rfl fun j _ => ?_)
  obtain ⟨R, rfl⟩ : ∃ R : Fin 64, j = ix1 R := ⟨j 0, eq_ix1 j⟩
  exact lossRow_read x0 x1 R

end Cert.ReferenceIdeal.RefValue

end
-- ==== Proof.ScratchGeo.lean ====
/-
  Reading one column of the 32-by-128 scratch. A column store writes the 32-by-1 rectangle at offsets (0, jj);
  element (r, 0) of that rectangle sits at index (r, jj) of the buffer. So a load of column jj reads, at row r,
  the buffer at (r, jj); a list of stores read at (r, j) skips every store of another column and stops at the
  store of column j, whose payload it reads at (r, 0); and a store of the whole buffer is hit at every index.
-/
import proofs.«110834_j10900626997865_2_alg».proof.Proof.Gen.KernelIdeal.Frame
import Idealize.ShloMosaic.Lib.WritesUnit
import Idealize.ShloMosaic.Lib.Pipeline.Value
import Idealize.ShloMosaic.Lib.ValueIdx

noncomputable section

namespace Cert.KernelIdeal.Scratch

open Cert.KernelIdeal Cert.KernelIdeal.Gen Idealize.ShloMosaic ValueIdx

variable {F : FTy → Type} [FloatOps F]

/-- The offsets (0, 0), however spelled, are zero on both axes. -/
theorem hz2 : (![0, 0] : Fin 2 → Nat) = fun _ => 0 := funext fun a => by fin_cases a <;> rfl

/-- Element (r, 0) of the column rectangle at offsets (0, jj) sits at index (r, jj). -/
theorem colRect_idx (jj : ℕ) (inb : ∀ a, (![0, jj] : Fin 2 → ℕ) a + (![32, 1] : Fin 2 → ℕ) a ≤ S32x128.size a)
    (r : Fin 32) (j : Fin 128) (hj : j.val = jj) :
    (Rect.unit (s := S32x128) ![0, jj] ![32, 1] inb).idx (ix2 r (0 : Fin 1)) = ix2 r j := by
  funext a
  apply Fin.ext
  match a with
  | ⟨0, _⟩ => show 0 + 1 * r.val = r.val; omega
  | ⟨1, _⟩ => show jj + 1 * 0 = j.val; omega

/-- A load of column jj reads, at row r, the contents at (r, jj). -/
theorem ld_col (X : S32x128.Idx → Elt F .f32) (jj : ℕ)
    (inb : ∀ a, (![0, jj] : Fin 2 → ℕ) a + (![32, 1] : Fin 2 → ℕ) a ≤ S32x128.size a) (r : Fin 32) (j : Fin 128)
    (hj : j.val = jj) :
    View.ld X (Rect.unit (s := S32x128) ![0, jj] ![32, 1] inb) (ix2 r (0 : Fin 1)) = X (ix2 r j) :=
  congrArg X (colRect_idx jj inb r j hj)

section Writes

variable {sg : RefSig} {κ : Kind} {sp : Space} (v : View sg κ sp S32x128 .f32) (f : v.ty.Contents (Elt F))

/-- Reading (r, j) after a list of stores whose newest is a store of another column: that store is skipped. -/
theorem skip_col (jj : ℕ) (inb : ∀ a, (![0, jj] : Fin 2 → ℕ) a + (![32, 1] : Fin 2 → ℕ) a ≤ S32x128.size a)
    (w : (Rect.unit (s := S32x128) ![0, jj] ![32, 1] inb).shape.Idx → Elt F .f32)
    (L : List (View.Piece (Elt F) S32x128 .f32)) (r : Fin 32) (j : Fin 128) (h : j.val ≠ jj) :
    v.read (Elt F) (v.writes (Elt F) f ((⟨Rect.unit (s := S32x128) ![0, jj] ![32, 1] inb, w⟩ : View.Piece (Elt F) S32x128 .f32) :: L)) (ix2 r j)
      = v.read (Elt F) (v.writes (Elt F) f L) (ix2 r j) :=
  View.read_writes_cons_unit_of_not_mem v f inb w L (ix2 r j) rfl (1 : Fin 2) (by
    show j.val < jj ∨ jj + 1 ≤ j.val
    omega)

/-- Reading (r, j) after a list of stores whose newest is the store of column j: its payload at (r, 0). -/
theorem hit_col (jj : ℕ) (inb : ∀ a, (![0, jj] : Fin 2 → ℕ) a + (![32, 1] : Fin 2 → ℕ) a ≤ S32x128.size a)
    (w : (Rect.unit (s := S32x128) ![0, jj] ![32, 1] inb).shape.Idx → Elt F .f32)
    (L : List (View.Piece (Elt F) S32x128 .f32)) (r : Fin 32) (j : Fin 128) (h : j.val = jj) :
    v.read (Elt F) (v.writes (Elt F) f ((⟨Rect.unit (s := S32x128) ![0, jj] ![32, 1] inb, w⟩ : View.Piece (Elt F) S32x128 .f32) :: L)) (ix2 r j)
      = w (ix2 r (0 : Fin 1)) :=
  View.read_writes_cons_unit_of_mem v f inb w L (ix2 r j) (ix2 r (0 : Fin 1)) rfl (fun a => by
    match a with
    | ⟨0, _⟩ => show r.val = 0 + r.val; omega
    | ⟨1, _⟩ => show j.val = jj + 0; omega)

end Writes

/-- The contents a list of stores leaves, at (r, j), when the newest is a store of another column. -/
theorem canon_skip (jj : ℕ) (inb : ∀ a, (![0, jj] : Fin 2 → ℕ) a + (![32, 1] : Fin 2 → ℕ) a ≤ S32x128.size a)
    (w : (Rect.unit (s := S32x128) ![0, jj] ![32, 1] inb).shape.Idx → Elt F .f32)
    (L : List (View.Piece (Elt F) S32x128 .f32)) (r : Fin 32) (j : Fin 128) (h : j.val ≠ jj) :
    View.canon ((⟨Rect.unit (s := S32x128) ![0, jj] ![32, 1] inb, w⟩ : View.Piece (Elt F) S32x128 .f32) :: L) (ix2 r j)
      = View.canon L (ix2 r j) :=
  View.canon_cons_of_not_mem _ L (fun hm => by
    have hm' : ix2 r j ∈ (Rect.unit (s := S32x128) ![0, jj] ![32, 1] inb).set := hm
    have h1 := (Rect.mem_set_unit (inb := inb)).mp hm' (1 : Fin 2)
    have h2 : jj ≤ j.val ∧ j.val < jj + 1 := h1
    omega)

/-- The contents a list of stores leaves, at (r, j), when the newest is the store of column j. -/
theorem canon_hit (jj : ℕ) (inb : ∀ a, (![0, jj] : Fin 2 → ℕ) a + (![32, 1] : Fin 2 → ℕ) a ≤ S32x128.size a)
    (w : (Rect.unit (s := S32x128) ![0, jj] ![32, 1] inb).shape.Idx → Elt F .f32)
    (L : List (View.Piece (Elt F) S32x128 .f32)) (r : Fin 32) (j : Fin 128) (h : j.val = jj) :
    View.canon ((⟨Rect.unit (s := S32x128) ![0, jj] ![32, 1] inb, w⟩ : View.Piece (Elt F) S32x128 .f32) :: L) (ix2 r j)
      = w (ix2 r (0 : Fin 1)) := by
  rw [← colRect_idx jj inb r j h]
  exact View.canon_cons_emb (Rect.unit (s := S32x128) ![0, jj] ![32, 1] inb) w L (ix2 r (0 : Fin 1))

/-- A load of column jj of what a list of stores left reads, at row r, those contents at (r, jj). -/
theorem readCov_col {sg : RefSig} {κ : Kind} {sp : Space} (v : View sg κ sp S32x128 .f32)
    (L : List (View.Piece (Elt F) S32x128 .f32)) (jj : ℕ)
    (inb : ∀ a, (![0, jj] : Fin 2 → ℕ) a + (![32, 1] : Fin 2 → ℕ) a ≤ S32x128.size a) (r : Fin 32) (j : Fin 128)
    (hj : j.val = jj) :
    v.readCov L (Rect.unit (s := S32x128) ![0, jj] ![32, 1] inb).toLoadRect (ix2 r (0 : Fin 1)) = View.canon L (ix2 r j) := by
  rw [View.readCov_eq_canon']
  exact congrArg (View.canon L) (colRect_idx jj inb r j hj)

end Cert.KernelIdeal.Scratch

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.TileStats.lean ====
/-
  The kernel body's pure values, read at a row of the block at the ideal instance.

  For one block of 32 rows by 16384 lanes: the lane sums of the probabilities, of the targets and of their
  products; the lane maximum of the targets (a supremum); the number of lanes with probability above one half,
  the number of lanes where the target equals the block's row maximum, and the number with both. Each value
  the body stores is the running statistic as the previous block left it, combined with the block's own: sums
  add; the maximum is the larger of the two; a count of the lanes attaining the maximum restarts when the block's
  maximum is strictly larger, accumulates on a tie, and is kept otherwise.
-/
import proofs.«110834_j10900626997865_2_alg».proof.Proof.Gen.KernelIdeal.Skeleton
import proofs.«110834_j10900626997865_2_alg».proof.Proof.LibColumn
import proofs.«110834_j10900626997865_2_alg».proof.Proof.Counting
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileStats

open Cert.KernelIdeal Cert.KernelIdeal.Gen Idealize.ShloMosaic ValueIdx Finset RowStats

/-- A block of 32 rows by 16384 lanes at the ideal instance. -/
abbrev X : Type := Vec Ideal S32x16384 .f32
/-- A column of 32 rows at the ideal instance. -/
abbrev C : Type := Vec Ideal S32x1 .f32
/-- The one lane of a column. -/
abbrev z : Fin 1 := 0

/-- The sum of row r of a block. -/
def tSum (x : X) (r : Fin 32) : EReal := ∑ l : Fin 16384, x (ix2 r l)
/-- The sum of the products of row r of two blocks. -/
def tSumProd (x0 x1 : X) (r : Fin 32) : EReal := ∑ l : Fin 16384, x0 (ix2 r l) * x1 (ix2 r l)
/-- The maximum of row r of a block. -/
def tMax (x1 : X) (r : Fin 32) : EReal := (univ : Finset (Fin 16384)).sup fun l => x1 (ix2 r l)
/-- The number of lanes of row r above one half. -/
def tHard (x0 : X) (r : Fin 32) : EReal := ∑ l : Fin 16384, ind (half < x0 (ix2 r l))
/-- The number of lanes of row r equal to M. -/
def tAt (x1 : X) (r : Fin 32) (M : EReal) : EReal := ∑ l : Fin 16384, ind (x1 (ix2 r l) = M)
/-- The number of lanes of row r above one half in the first block and equal to M in the second. -/
def tBoth (x0 x1 : X) (r : Fin 32) (M : EReal) : EReal :=
  ∑ l : Fin 16384, ind (half < x0 (ix2 r l)) * ind (x1 (ix2 r l) = M)

/-! Words and bits. -/

/-- The signed reading of the widened bit of a decided proposition is its indicator. -/
theorem sitofp_ofBool (b : Prop) [Decidable b] :
    FloatOps.sitofp (F := Ideal) .f32 ((BitVec.ofBool (decide b)).setWidth 32) = ind b := by
  show ((((BitVec.ofBool (decide b)).setWidth 32).toInt : ℝ) : EReal) = ind b
  by_cases h : b
  · have e : ((BitVec.ofBool true).setWidth 32).toInt = 1 := by decide
    rw [ind_of h, decide_eq_true h, e]; simp
  · have e : ((BitVec.ofBool false).setWidth 32).toInt = 0 := by decide
    rw [ind_of_not h, decide_eq_false h, e]; simp

/-- A select on the bit of a decided proposition is the if-then-else on the proposition. -/
theorem select_ofBool {α : Type} (b : Prop) [Decidable b] (a c : α) :
    Scalar.select (BitVec.ofBool (decide b)) a c = if b then a else c := by
  by_cases h : b
  · rw [decide_eq_true h, if_pos h]; exact select_one a c
  · rw [decide_eq_false h, if_neg h]; exact select_zero a c

/-- A comparison "greater than" of two columns at an index is the bit of the strict inequality. -/
theorem cmp_ogt_apply (a b : FVec Ideal S32x1 .f32) (i : S32x1.Idx) :
    cmpf (F := Ideal) (φ := .f32) .ogt a b i = BitVec.ofBool (decide (b i < a i)) := rfl

/-- A comparison "equal" of two columns at an index is the bit of the equality. -/
theorem cmp_oeq_apply (a b : FVec Ideal S32x1 .f32) (i : S32x1.Idx) :
    cmpf (F := Ideal) (φ := .f32) .oeq a b i = BitVec.ofBool (decide (a i = b i)) := rfl

/-! The lane reductions of a block, as columns read at a row. -/

/-- A lane sum, as a column, read at row r: the sum of the row. -/
theorem laneSum_apply (src : FVec Ideal S32x16384 .f32) (r : Fin 32) :
    shapeCast S32x1 (multiReduction (F := Ideal) .add [1] S32 src 0x00000000#32 reduces_S32x16384_S32 (.inl rfl) rfl)
        shapeCasts_S32_S32x1 (ix2 r z) = ∑ l : Fin 16384, src (ix2 r l) :=
  (ColumnIdx.shapeCast_a_a1_apply _ _ r z).trans (ColumnIdx.rowSum_apply src _ _ _ r)

theorem pay4_apply (x0 : X) (r : Fin 32) : k0_pay4 (F := Ideal) x0 (ix2 r z) = tSum x0 r := by
  unfold k0_pay4 tSum
  exact laneSum_apply x0 r

theorem pay5_apply (x1 : X) (r : Fin 32) : k0_pay5 (F := Ideal) x1 (ix2 r z) = tSum x1 r := by
  unfold k0_pay5 tSum
  exact laneSum_apply x1 r

theorem pay6_apply (x0 x1 : X) (r : Fin 32) : k0_pay6 (F := Ideal) x0 x1 (ix2 r z) = tSumProd x0 x1 r := by
  unfold k0_pay6 tSumProd
  exact (laneSum_apply (mulf (F := Ideal) (φ := .f32) x0 x1) r).trans (Finset.sum_congr rfl fun l _ => rfl)

/-- The lane maximum, as a column, read at row r: the supremum of the row. -/
theorem pay7_apply (x1 : X) (r : Fin 32) : k0_pay7 (F := Ideal) x1 (ix2 r z) = tMax x1 r := by
  unfold k0_pay7 tMax
  refine (ColumnIdx.shapeCast_a_a1_apply _ _ r z).trans ?_
  refine (ColumnIdx.rowMax_apply x1 _ _ _ r).trans ?_
  rw [ofBits_negInf, fold_max_bot_eq_sup]

/-- The hard prediction at a lane. -/
theorem pay8_apply (x0 : X) (i : S32x16384.Idx) : k0_pay8 (F := Ideal) x0 i = ind (half < x0 i) := by
  unfold k0_pay8
  exact sitofp_ofBool (half < x0 i)

/-- The indicator of "target equals the block's row maximum" at a lane. -/
theorem pay9_apply (x1 : X) (r : Fin 32) (l : Fin 16384) :
    k0_pay9 (F := Ideal) x1 (ix2 r l) = ind (x1 (ix2 r l) = tMax x1 r) := by
  have e : broadcastTo S32x16384 (k0_pay7 (F := Ideal) x1) broadcasts_S32x1_S32x16384 (ix2 r l) = tMax x1 r :=
    (ColumnIdx.broadcastTo_a1_ab_apply _ _ r l).trans (pay7_apply x1 r)
  unfold k0_pay9
  refine (sitofp_ofBool (x1 (ix2 r l)
    = broadcastTo S32x16384 (k0_pay7 (F := Ideal) x1) broadcasts_S32x1_S32x16384 (ix2 r l))).trans ?_
  rw [e]

theorem pay10_apply (x0 : X) (r : Fin 32) : k0_pay10 (F := Ideal) x0 (ix2 r z) = tHard x0 r := by
  unfold k0_pay10 tHard
  exact (laneSum_apply _ r).trans (Finset.sum_congr rfl fun l _ => pay8_apply x0 _)

theorem pay11_apply (x0 x1 : X) (r : Fin 32) :
    k0_pay11 (F := Ideal) x0 x1 (ix2 r z) = tBoth x0 x1 r (tMax x1 r) := by
  unfold k0_pay11 tBoth
  refine (laneSum_apply _ r).trans (Finset.sum_congr rfl fun l _ => ?_)
  show k0_pay8 (F := Ideal) x0 (ix2 r l) * k0_pay9 (F := Ideal) x1 (ix2 r l) = _
  rw [pay8_apply, pay9_apply]

/-- The count of the lanes attaining the block's row maximum, as a column read at row r. -/
theorem cntAt_apply (x1 : X) (r : Fin 32) :
    shapeCast S32x1 (multiReduction (F := Ideal) .add [1] S32 (k0_pay9 (F := Ideal) x1) 0x00000000#32 reduces_S32x16384_S32
        (.inl rfl) rfl) shapeCasts_S32_S32x1 (ix2 r z) = tAt x1 r (tMax x1 r) :=
  (laneSum_apply _ r).trans (Finset.sum_congr rfl fun l _ => pay9_apply x1 r l)

theorem pay12_apply (x1 : X) (v29 : C) (r : Fin 32) :
    k0_pay12 (F := Ideal) x1 v29 (ix2 r z) = BitVec.ofBool (decide (v29 (ix2 r z) < tMax x1 r)) := by
  unfold k0_pay12
  refine (cmp_ogt_apply _ _ _).trans ?_
  rw [pay7_apply]

theorem pay13_apply (x1 : X) (v29 : C) (r : Fin 32) :
    k0_pay13 (F := Ideal) x1 v29 (ix2 r z) = BitVec.ofBool (decide (tMax x1 r = v29 (ix2 r z))) := by
  unfold k0_pay13
  refine (cmp_oeq_apply _ _ _).trans ?_
  rw [pay7_apply]

theorem pay14_apply (x1 : X) (v29 v30 : C) (r : Fin 32) :
    k0_pay14 (F := Ideal) x1 v29 v30 (ix2 r z) =
      if v29 (ix2 r z) < tMax x1 r then tAt x1 r (tMax x1 r)
      else if tMax x1 r = v29 (ix2 r z) then v30 (ix2 r z) + tAt x1 r (tMax x1 r) else v30 (ix2 r z) := by
  unfold k0_pay14
  show Scalar.select (k0_pay12 (F := Ideal) x1 v29 (ix2 r z))
      (shapeCast S32x1 (multiReduction (F := Ideal) .add [1] S32 (k0_pay9 (F := Ideal) x1) 0x00000000#32 reduces_S32x16384_S32
        (.inl rfl) rfl) shapeCasts_S32_S32x1 (ix2 r z))
      (Scalar.select (k0_pay13 (F := Ideal) x1 v29 (ix2 r z))
        (v30 (ix2 r z) + shapeCast S32x1 (multiReduction (F := Ideal) .add [1] S32 (k0_pay9 (F := Ideal) x1) 0x00000000#32
          reduces_S32x16384_S32 (.inl rfl) rfl) shapeCasts_S32_S32x1 (ix2 r z))
        (v30 (ix2 r z))) = _
  rw [cntAt_apply, pay12_apply, pay13_apply, select_ofBool, select_ofBool]

/-! The values the body stores. -/

theorem pay2_apply (y : S32x128.Idx) : k0_pay2 (F := Ideal) y = 0 := by
  unfold k0_pay2
  refine (congrFun (shapeCast_self _ _) y).trans ?_
  exact ofBits_zero

theorem pay3_apply (y : S32x1.Idx) : k0_pay3 (F := Ideal) y = ⊥ := by
  unfold k0_pay3
  refine (congrFun (shapeCast_self _ _) y).trans ?_
  exact ofBits_negInf

theorem pay15_apply (x0 : X) (v41 : C) (r : Fin 32) :
    k0_pay15 (F := Ideal) (k0_pay4 (F := Ideal) x0) v41 (ix2 r z) = v41 (ix2 r z) + tSum x0 r := by
  unfold k0_pay15
  refine (congrFun (shapeCast_self _ _) _).trans ?_
  show v41 (ix2 r z) + k0_pay4 (F := Ideal) x0 (ix2 r z) = _
  rw [pay4_apply]

theorem pay16_apply (x1 : X) (v46 : C) (r : Fin 32) :
    k0_pay16 (F := Ideal) (k0_pay5 (F := Ideal) x1) v46 (ix2 r z) = v46 (ix2 r z) + tSum x1 r := by
  unfold k0_pay16
  refine (congrFun (shapeCast_self _ _) _).trans ?_
  show v46 (ix2 r z) + k0_pay5 (F := Ideal) x1 (ix2 r z) = _
  rw [pay5_apply]

theorem pay17_apply (x0 x1 : X) (v51 : C) (r : Fin 32) :
    k0_pay17 (F := Ideal) (k0_pay6 (F := Ideal) x0 x1) v51 (ix2 r z) = v51 (ix2 r z) + tSumProd x0 x1 r := by
  unfold k0_pay17
  refine (congrFun (shapeCast_self _ _) _).trans ?_
  show v51 (ix2 r z) + k0_pay6 (F := Ideal) x0 x1 (ix2 r z) = _
  rw [pay6_apply]

theorem pay18_apply (x1 : X) (v29 : C) (r : Fin 32) :
    k0_pay18 (F := Ideal) (k0_pay7 (F := Ideal) x1) v29 (ix2 r z) = max (v29 (ix2 r z)) (tMax x1 r) := by
  unfold k0_pay18
  refine (congrFun (shapeCast_self _ _) _).trans ?_
  show max (v29 (ix2 r z)) (k0_pay7 (F := Ideal) x1 (ix2 r z)) = _
  rw [pay7_apply]

theorem pay19_apply (x1 : X) (v29 v30 : C) (r : Fin 32) :
    k0_pay19 (F := Ideal) (k0_pay14 (F := Ideal) x1 v29 v30) (ix2 r z) =
      if v29 (ix2 r z) < tMax x1 r then tAt x1 r (tMax x1 r)
      else if tMax x1 r = v29 (ix2 r z) then v30 (ix2 r z) + tAt x1 r (tMax x1 r) else v30 (ix2 r z) := by
  unfold k0_pay19
  exact (congrFun (shapeCast_self _ _) _).trans (pay14_apply x1 v29 v30 r)

theorem pay20_apply (x0 x1 : X) (v29 v31 : C) (r : Fin 32) :
    k0_pay20 (F := Ideal) (k0_pay11 (F := Ideal) x0 x1) v31 (k0_pay12 (F := Ideal) x1 v29) (k0_pay13 (F := Ideal) x1 v29) (ix2 r z) =
      if v29 (ix2 r z) < tMax x1 r then tBoth x0 x1 r (tMax x1 r)
      else if tMax x1 r = v29 (ix2 r z) then v31 (ix2 r z) + tBoth x0 x1 r (tMax x1 r) else v31 (ix2 r z) := by
  unfold k0_pay20
  refine (congrFun (shapeCast_self _ _) _).trans ?_
  show Scalar.select (k0_pay12 (F := Ideal) x1 v29 (ix2 r z)) (k0_pay11 (F := Ideal) x0 x1 (ix2 r z))
      (Scalar.select (k0_pay13 (F := Ideal) x1 v29 (ix2 r z))
        (v31 (ix2 r z) + k0_pay11 (F := Ideal) x0 x1 (ix2 r z)) (v31 (ix2 r z))) = _
  rw [pay11_apply, pay12_apply, pay13_apply, select_ofBool, select_ofBool]

theorem pay1_apply (x0 : X) (v65 : C) (r : Fin 32) :
    k0_pay1 (F := Ideal) (k0_pay21 (F := Ideal) (k0_pay10 (F := Ideal) x0) v65) (ix2 r z) = v65 (ix2 r z) + tHard x0 r := by
  unfold k0_pay1
  refine (congrFun (shapeCast_self _ _) _).trans ?_
  show v65 (ix2 r z) + k0_pay10 (F := Ideal) x0 (ix2 r z) = _
  rw [pay10_apply]

end Cert.KernelIdeal.TileStats

end
-- ==== Proof.ScratchCases.lean ====
/-
  What one grid point leaves in the 32-by-128 scratch, column by column, when it starts from contents S (the
  point is not the first of its row tile): with x0, x1 the point's blocks of the two arguments, row r of
  columns 0, 1, 2, 6 gains the tile's sum of p, of t, of p·t and its count of p > 1/2; column 3 becomes the
  larger of the old maximum and the tile's; columns 4 and 5 (the number of columns attaining the maximum, and
  those among them with p > 1/2) are replaced by the tile's counts when the tile's maximum is strictly larger,
  gain them when the two maxima tie, and stay otherwise.
-/
import proofs.«110834_j10900626997865_2_alg».proof.Proof.ScratchGeo
import proofs.«110834_j10900626997865_2_alg».proof.Proof.TileStats
import Idealize.ShloMosaic.Lib.Tactic

noncomputable section

namespace Cert.KernelIdeal.Scratch

open Cert.KernelIdeal Cert.KernelIdeal.Gen Cert.KernelIdeal.TileStats Idealize.ShloMosaic ValueIdx
open Idealize.ShloMosaic.Tactic

variable (c : Dev nD) (i : grid0.Coords) (arg2 : Memref sig .tc .vmem S32x16384 .f32) (harg2 : arg2.IsWhole)
  (arg3 : Memref sig .tc .vmem S32x16384 .f32) (harg3 : arg3.IsWhole) (arg4 : Memref sig .tc .vmem S32x128 .f32)
  (harg4 : arg4.IsWhole) (arg5 : Memref sig .tc .vmem S32x128 .f32) (harg5 : arg5.IsWhole)

section CaseB

variable (hc0 : ¬cond0_0 i) (hc1 : ¬cond0_1 i) (x0 x1 : Vec Ideal S32x16384 .f32) (xs0 : Vec Ideal S32x128 .f32) (r : Fin 32)

theorem soutB_0 : sout0_B_0 (F := Ideal) c i arg2 harg2 arg3 harg3 arg4 harg4 arg5 harg5 hc0 hc1 x0 x1 xs0 (ix2 r (0 : Fin 128))
    = xs0 (ix2 r (0 : Fin 128)) + tSum x0 r := by
  unfold sout0_B_0 kernelRun0_B
  dsimp only
  rw [skip_col _ _ 6 _ _ _ r 0 (by decide), skip_col _ _ 5 _ _ _ r 0 (by decide), skip_col _ _ 4 _ _ _ r 0 (by decide), skip_col _ _ 3 _ _ _ r 0 (by decide), skip_col _ _ 2 _ _ _ r 0 (by decide), skip_col _ _ 1 _ _ _ r 0 (by decide), hit_col _ _ 0 _ _ _ r 0 rfl]
  sl_unfold_words
  simp only [View.readAt_eq_ld, harg2.read_unread, harg3.read_unread, harg5.read_unread, View.ld_unit_zero (S := S32x16384) hz2]
  refine (pay15_apply x0 _ r).trans ?_
  exact congrArg (· + tSum x0 r) (ld_col xs0 0 _ r 0 rfl)

theorem soutB_1 : sout0_B_0 (F := Ideal) c i arg2 harg2 arg3 harg3 arg4 harg4 arg5 harg5 hc0 hc1 x0 x1 xs0 (ix2 r (1 : Fin 128))
    = xs0 (ix2 r (1 : Fin 128)) + tSum x1 r := by
  unfold sout0_B_0 kernelRun0_B
  dsimp only
  rw [skip_col _ _ 6 _ _ _ r 1 (by decide), skip_col _ _ 5 _ _ _ r 1 (by decide), skip_col _ _ 4 _ _ _ r 1 (by decide), skip_col _ _ 3 _ _ _ r 1 (by decide), skip_col _ _ 2 _ _ _ r 1 (by decide), hit_col _ _ 1 _ _ _ r 1 rfl]
  sl_unfold_words
  simp only [View.readAt_eq_ld, harg2.read_unread, harg3.read_unread, harg5.read_unread, View.ld_unit_zero (S := S32x16384) hz2]
  refine (pay16_apply x1 _ r).trans ?_
  exact congrArg (· + tSum x1 r) (ld_col xs0 1 _ r 1 rfl)

theorem soutB_2 : sout0_B_0 (F := Ideal) c i arg2 harg2 arg3 harg3 arg4 harg4 arg5 harg5 hc0 hc1 x0 x1 xs0 (ix2 r (2 : Fin 128))
    = xs0 (ix2 r (2 : Fin 128)) + tSumProd x0 x1 r := by
  unfold sout0_B_0 kernelRun0_B
  dsimp only
  rw [skip_col _ _ 6 _ _ _ r 2 (by decide), skip_col _ _ 5 _ _ _ r 2 (by decide), skip_col _ _ 4 _ _ _ r 2 (by decide), skip_col _ _ 3 _ _ _ r 2 (by decide), hit_col _ _ 2 _ _ _ r 2 rfl]
  sl_unfold_words
  simp only [View.readAt_eq_ld, harg2.read_unread, harg3.read_unread, harg5.read_unread, View.ld_unit_zero (S := S32x16384) hz2]
  refine (pay17_apply x0 x1 _ r).trans ?_
  exact congrArg (· + tSumProd x0 x1 r) (ld_col xs0 2 _ r 2 rfl)

theorem soutB_3 : sout0_B_0 (F := Ideal) c i arg2 harg2 arg3 harg3 arg4 harg4 arg5 harg5 hc0 hc1 x0 x1 xs0 (ix2 r (3 : Fin 128))
    = max (xs0 (ix2 r (3 : Fin 128))) (tMax x1 r) := by
  unfold sout0_B_0 kernelRun0_B
  dsimp only
  rw [skip_col _ _ 6 _ _ _ r 3 (by decide), skip_col _ _ 5 _ _ _ r 3 (by decide), skip_col _ _ 4 _ _ _ r 3 (by decide), hit_col _ _ 3 _ _ _ r 3 rfl]
  sl_unfold_words
  simp only [View.readAt_eq_ld, harg2.read_unread, harg3.read_unread, harg5.read_unread, View.ld_unit_zero (S := S32x16384) hz2]
  refine (pay18_apply x1 _ r).trans ?_
  exact congrArg (max · (tMax x1 r)) (ld_col xs0 3 _ r 3 rfl)

theorem soutB_4 : sout0_B_0 (F := Ideal) c i arg2 harg2 arg3 harg3 arg4 harg4 arg5 harg5 hc0 hc1 x0 x1 xs0 (ix2 r (4 : Fin 128))
    = if xs0 (ix2 r (3 : Fin 128)) < tMax x1 r then tAt x1 r (tMax x1 r)
      else if tMax x1 r = xs0 (ix2 r (3 : Fin 128)) then xs0 (ix2 r (4 : Fin 128)) + tAt x1 r (tMax x1 r)
      else xs0 (ix2 r (4 : Fin 128)) := by
  unfold sout0_B_0 kernelRun0_B
  dsimp only
  rw [skip_col _ _ 6 _ _ _ r 4 (by decide), skip_col _ _ 5 _ _ _ r 4 (by decide), hit_col _ _ 4 _ _ _ r 4 rfl]
  sl_unfold_words
  simp only [View.readAt_eq_ld, harg2.read_unread, harg3.read_unread, harg5.read_unread, View.ld_unit_zero (S := S32x16384) hz2]
  refine (pay19_apply x1 _ _ r).trans ?_
  rw [ld_col xs0 3 _ r 3 rfl, ld_col xs0 4 _ r 4 rfl]

theorem soutB_5 : sout0_B_0 (F := Ideal) c i arg2 harg2 arg3 harg3 arg4 harg4 arg5 harg5 hc0 hc1 x0 x1 xs0 (ix2 r (5 : Fin 128))
    = if xs0 (ix2 r (3 : Fin 128)) < tMax x1 r then tBoth x0 x1 r (tMax x1 r)
      else if tMax x1 r = xs0 (ix2 r (3 : Fin 128)) then xs0 (ix2 r (5 : Fin 128)) + tBoth x0 x1 r (tMax x1 r)
      else xs0 (ix2 r (5 : Fin 128)) := by
  unfold sout0_B_0 kernelRun0_B
  dsimp only
  rw [skip_col _ _ 6 _ _ _ r 5 (by decide), hit_col _ _ 5 _ _ _ r 5 rfl]
  sl_unfold_words
  simp only [View.readAt_eq_ld, harg2.read_unread, harg3.read_unread, harg5.read_unread, View.ld_unit_zero (S := S32x16384) hz2]
  refine (pay20_apply x0 x1 _ _ r).trans ?_
  rw [ld_col xs0 3 _ r 3 rfl, ld_col xs0 5 _ r 5 rfl]

theorem soutB_6 : sout0_B_0 (F := Ideal) c i arg2 harg2 arg3 harg3 arg4 harg4 arg5 harg5 hc0 hc1 x0 x1 xs0 (ix2 r (6 : Fin 128))
    = xs0 (ix2 r (6 : Fin 128)) + tHard x0 r := by
  unfold sout0_B_0 kernelRun0_B
  dsimp only
  rw [hit_col _ _ 6 _ _ _ r 6 rfl]
  sl_unfold_words
  simp only [View.readAt_eq_ld, harg2.read_unread, harg3.read_unread, harg5.read_unread, View.ld_unit_zero (S := S32x16384) hz2]
  refine (pay1_apply x0 _ r).trans ?_
  exact congrArg (· + tHard x0 r) (ld_col xs0 6 _ r 6 rfl)

end CaseB

section CaseC

variable (hc0 : ¬cond0_0 i) (hc1 : cond0_1 i) (x0 x1 : Vec Ideal S32x16384 .f32) (xs0 : Vec Ideal S32x128 .f32) (r : Fin 32)

theorem soutC_0 : sout0_C_0 (F := Ideal) c i arg2 harg2 arg3 harg3 arg4 harg4 arg5 harg5 hc0 hc1 x0 x1 xs0 (ix2 r (0 : Fin 128))
    = xs0 (ix2 r (0 : Fin 128)) + tSum x0 r := by
  unfold sout0_C_0 kernelRun0_C
  dsimp only
  unfold kernelRun0_C.sl.HS0_7
  rw [skip_col _ _ 6 _ _ _ r 0 (by decide), skip_col _ _ 5 _ _ _ r 0 (by decide), skip_col _ _ 4 _ _ _ r 0 (by decide), skip_col _ _ 3 _ _ _ r 0 (by decide), skip_col _ _ 2 _ _ _ r 0 (by decide), skip_col _ _ 1 _ _ _ r 0 (by decide), hit_col _ _ 0 _ _ _ r 0 rfl]
  sl_unfold_words
  simp only [View.readAt_eq_ld, harg2.read_unread, harg3.read_unread, harg5.read_unread, View.ld_unit_zero (S := S32x16384) hz2]
  refine (pay15_apply x0 _ r).trans ?_
  exact congrArg (· + tSum x0 r) (ld_col xs0 0 _ r 0 rfl)

theorem soutC_1 : sout0_C_0 (F := Ideal) c i arg2 harg2 arg3 harg3 arg4 harg4 arg5 harg5 hc0 hc1 x0 x1 xs0 (ix2 r (1 : Fin 128))
    = xs0 (ix2 r (1 : Fin 128)) + tSum x1 r := by
  unfold sout0_C_0 kernelRun0_C
  dsimp only
  unfold kernelRun0_C.sl.HS0_7
  rw [skip_col _ _ 6 _ _ _ r 1 (by decide), skip_col _ _ 5 _ _ _ r 1 (by decide), skip_col _ _ 4 _ _ _ r 1 (by decide), skip_col _ _ 3 _ _ _ r 1 (by decide), skip_col _ _ 2 _ _ _ r 1 (by decide), hit_col _ _ 1 _ _ _ r 1 rfl]
  sl_unfold_words
  simp only [View.readAt_eq_ld, harg2.read_unread, harg3.read_unread, harg5.read_unread, View.ld_unit_zero (S := S32x16384) hz2]
  refine (pay16_apply x1 _ r).trans ?_
  exact congrArg (· + tSum x1 r) (ld_col xs0 1 _ r 1 rfl)

theorem soutC_2 : sout0_C_0 (F := Ideal) c i arg2 harg2 arg3 harg3 arg4 harg4 arg5 harg5 hc0 hc1 x0 x1 xs0 (ix2 r (2 : Fin 128))
    = xs0 (ix2 r (2 : Fin 128)) + tSumProd x0 x1 r := by
  unfold sout0_C_0 kernelRun0_C
  dsimp only
  unfold kernelRun0_C.sl.HS0_7
  rw [skip_col _ _ 6 _ _ _ r 2 (by decide), skip_col _ _ 5 _ _ _ r 2 (by decide), skip_col _ _ 4 _ _ _ r 2 (by decide), skip_col _ _ 3 _ _ _ r 2 (by decide), hit_col _ _ 2 _ _ _ r 2 rfl]
  sl_unfold_words
  simp only [View.readAt_eq_ld, harg2.read_unread, harg3.read_unread, harg5.read_unread, View.ld_unit_zero (S := S32x16384) hz2]
  refine (pay17_apply x0 x1 _ r).trans ?_
  exact congrArg (· + tSumProd x0 x1 r) (ld_col xs0 2 _ r 2 rfl)

theorem soutC_3 : sout0_C_0 (F := Ideal) c i arg2 harg2 arg3 harg3 arg4 harg4 arg5 harg5 hc0 hc1 x0 x1 xs0 (ix2 r (3 : Fin 128))
    = max (xs0 (ix2 r (3 : Fin 128))) (tMax x1 r) := by
  unfold sout0_C_0 kernelRun0_C
  dsimp only
  unfold kernelRun0_C.sl.HS0_7
  rw [skip_col _ _ 6 _ _ _ r 3 (by decide), skip_col _ _ 5 _ _ _ r 3 (by decide), skip_col _ _ 4 _ _ _ r 3 (by decide), hit_col _ _ 3 _ _ _ r 3 rfl]
  sl_unfold_words
  simp only [View.readAt_eq_ld, harg2.read_unread, harg3.read_unread, harg5.read_unread, View.ld_unit_zero (S := S32x16384) hz2]
  refine (pay18_apply x1 _ r).trans ?_
  exact congrArg (max · (tMax x1 r)) (ld_col xs0 3 _ r 3 rfl)

theorem soutC_4 : sout0_C_0 (F := Ideal) c i arg2 harg2 arg3 harg3 arg4 harg4 arg5 harg5 hc0 hc1 x0 x1 xs0 (ix2 r (4 : Fin 128))
    = if xs0 (ix2 r (3 : Fin 128)) < tMax x1 r then tAt x1 r (tMax x1 r)
      else if tMax x1 r = xs0 (ix2 r (3 : Fin 128)) then xs0 (ix2 r (4 : Fin 128)) + tAt x1 r (tMax x1 r)
      else xs0 (ix2 r (4 : Fin 128)) := by
  unfold sout0_C_0 kernelRun0_C
  dsimp only
  unfold kernelRun0_C.sl.HS0_7
  rw [skip_col _ _ 6 _ _ _ r 4 (by decide), skip_col _ _ 5 _ _ _ r 4 (by decide), hit_col _ _ 4 _ _ _ r 4 rfl]
  sl_unfold_words
  simp only [View.readAt_eq_ld, harg2.read_unread, harg3.read_unread, harg5.read_unread, View.ld_unit_zero (S := S32x16384) hz2]
  refine (pay19_apply x1 _ _ r).trans ?_
  rw [ld_col xs0 3 _ r 3 rfl, ld_col xs0 4 _ r 4 rfl]

theorem soutC_5 : sout0_C_0 (F := Ideal) c i arg2 harg2 arg3 harg3 arg4 harg4 arg5 harg5 hc0 hc1 x0 x1 xs0 (ix2 r (5 : Fin 128))
    = if xs0 (ix2 r (3 : Fin 128)) < tMax x1 r then tBoth x0 x1 r (tMax x1 r)
      else if tMax x1 r = xs0 (ix2 r (3 : Fin 128)) then xs0 (ix2 r (5 : Fin 128)) + tBoth x0 x1 r (tMax x1 r)
      else xs0 (ix2 r (5 : Fin 128)) := by
  unfold sout0_C_0 kernelRun0_C
  dsimp only
  unfold kernelRun0_C.sl.HS0_7
  rw [skip_col _ _ 6 _ _ _ r 5 (by decide), hit_col _ _ 5 _ _ _ r 5 rfl]
  sl_unfold_words
  simp only [View.readAt_eq_ld, harg2.read_unread, harg3.read_unread, harg5.read_unread, View.ld_unit_zero (S := S32x16384) hz2]
  refine (pay20_apply x0 x1 _ _ r).trans ?_
  rw [ld_col xs0 3 _ r 3 rfl, ld_col xs0 5 _ r 5 rfl]

theorem soutC_6 : sout0_C_0 (F := Ideal) c i arg2 harg2 arg3 harg3 arg4 harg4 arg5 harg5 hc0 hc1 x0 x1 xs0 (ix2 r (6 : Fin 128))
    = xs0 (ix2 r (6 : Fin 128)) + tHard x0 r := by
  unfold sout0_C_0 kernelRun0_C
  dsimp only
  unfold kernelRun0_C.sl.HS0_7
  rw [hit_col _ _ 6 _ _ _ r 6 rfl]
  sl_unfold_words
  simp only [View.readAt_eq_ld, harg2.read_unread, harg3.read_unread, harg5.read_unread, View.ld_unit_zero (S := S32x16384) hz2]
  refine (pay1_apply x0 _ r).trans ?_
  exact congrArg (· + tHard x0 r) (ld_col xs0 6 _ r 6 rfl)

/-- At the last point of a row tile the output block is the scratch as the point leaves it. -/
theorem outC_eq : out0_C_2 (F := Ideal) c i arg2 harg2 arg3 harg3 arg4 harg4 arg5 harg5 hc0 hc1 x0 x1 xs0
    = sout0_C_0 (F := Ideal) c i arg2 harg2 arg3 harg3 arg4 harg4 arg5 harg5 hc0 hc1 x0 x1 xs0 := by
  unfold out0_C_2
  rw [View.read_writes_eq_canon _ _ _ (cover0_C_2 c i arg2 harg2 arg3 harg3 arg4 harg4 arg5 harg5 hc0 hc1 x0 x1 xs0)]
  unfold sout0_C_0 kernelRun0_C
  dsimp only
  rw [View.canon_unit_zero hz2]
  unfold kernelRun0_C.sl.v73
  rw [View.readAt_eq_ld, View.ld_unit_zero (S := S32x128) hz2]

end CaseC

section CaseA

/-- What the two initialising stores leave at column 3: minus infinity. -/
theorem init_at3 (inb3 : ∀ a, (![0, 3] : Fin 2 → ℕ) a + (![32, 1] : Fin 2 → ℕ) a ≤ S32x128.size a)
    (inb0 : ∀ a, (![0, 0] : Fin 2 → ℕ) a + S32x128.size a ≤ S32x128.size a) (r : Fin 32) :
    View.canon [(⟨Rect.unit (s := S32x128) ![0, 3] ![32, 1] inb3, k0_pay3 (F := Ideal)⟩ : View.Piece (Elt Ideal) S32x128 .f32),
      ⟨Rect.unit (s := S32x128) ![0, 0] S32x128.size inb0, k0_pay2 (F := Ideal)⟩] (ix2 r (3 : Fin 128)) = ⊥ :=
  (canon_hit (F := Ideal) 3 inb3 _ _ r 3 rfl).trans (pay3_apply _)

/-- What the two initialising stores leave at any other column: zero. -/
theorem init_other (inb3 : ∀ a, (![0, 3] : Fin 2 → ℕ) a + (![32, 1] : Fin 2 → ℕ) a ≤ S32x128.size a)
    (inb0 : ∀ a, (![0, 0] : Fin 2 → ℕ) a + S32x128.size a ≤ S32x128.size a) (r : Fin 32) (j : Fin 128) (h : j.val ≠ 3) :
    View.canon [(⟨Rect.unit (s := S32x128) ![0, 3] ![32, 1] inb3, k0_pay3 (F := Ideal)⟩ : View.Piece (Elt Ideal) S32x128 .f32),
      ⟨Rect.unit (s := S32x128) ![0, 0] S32x128.size inb0, k0_pay2 (F := Ideal)⟩] (ix2 r j) = 0 :=
  (canon_skip (F := Ideal) 3 inb3 _ _ r j h).trans ((congrFun (View.canon_unit_zero hz2 inb0 _) (ix2 r j)).trans (pay2_apply _))

variable (hc0 : cond0_0 i) (hc1 : ¬cond0_1 i) (x0 x1 : Vec Ideal S32x16384 .f32) (r : Fin 32)

theorem soutA_0 : sout0_A_0 (F := Ideal) c i arg2 harg2 arg3 harg3 arg4 harg4 arg5 harg5 hc0 hc1 x0 x1 (ix2 r (0 : Fin 128))
    = 0 + tSum x0 r := by
  unfold sout0_A_0
  rw [View.read_writes_junk_eq_canon]
  unfold kernelRun0_A
  dsimp only
  sl_unfold_words
  rw [canon_skip (F := Ideal) 6 _ _ _ r 0 (by decide), canon_skip (F := Ideal) 5 _ _ _ r 0 (by decide), canon_skip (F := Ideal) 4 _ _ _ r 0 (by decide), canon_skip (F := Ideal) 3 _ _ _ r 0 (by decide), canon_skip (F := Ideal) 2 _ _ _ r 0 (by decide), canon_skip (F := Ideal) 1 _ _ _ r 0 (by decide), canon_hit (F := Ideal) 0 _ _ _ r 0 rfl]
  simp only [View.readAt_eq_ld, harg2.read_unread, harg3.read_unread, View.ld_unit_zero (S := S32x16384) hz2]
  refine (pay15_apply x0 _ r).trans ?_
  rw [readCov_col (F := Ideal) _ _ 0 _ r 0 rfl, init_other _ _ r 0 (by decide)]

theorem soutA_1 : sout0_A_0 (F := Ideal) c i arg2 harg2 arg3 harg3 arg4 harg4 arg5 harg5 hc0 hc1 x0 x1 (ix2 r (1 : Fin 128))
    = 0 + tSum x1 r := by
  unfold sout0_A_0
  rw [View.read_writes_junk_eq_canon]
  unfold kernelRun0_A
  dsimp only
  sl_unfold_words
  rw [canon_skip (F := Ideal) 6 _ _ _ r 1 (by decide), canon_skip (F := Ideal) 5 _ _ _ r 1 (by decide), canon_skip (F := Ideal) 4 _ _ _ r 1 (by decide), canon_skip (F := Ideal) 3 _ _ _ r 1 (by decide), canon_skip (F := Ideal) 2 _ _ _ r 1 (by decide), canon_hit (F := Ideal) 1 _ _ _ r 1 rfl]
  simp only [View.readAt_eq_ld, harg2.read_unread, harg3.read_unread, View.ld_unit_zero (S := S32x16384) hz2]
  refine (pay16_apply x1 _ r).trans ?_
  rw [readCov_col (F := Ideal) _ _ 1 _ r 1 rfl, canon_skip (F := Ideal) 0 _ _ _ r 1 (by decide), init_other _ _ r 1 (by decide)]

theorem soutA_2 : sout0_A_0 (F := Ideal) c i arg2 harg2 arg3 harg3 arg4 harg4 arg5 harg5 hc0 hc1 x0 x1 (ix2 r (2 : Fin 128))
    = 0 + tSumProd x0 x1 r := by
  unfold sout0_A_0
  rw [View.read_writes_junk_eq_canon]
  unfold kernelRun0_A
  dsimp only
  sl_unfold_words
  rw [canon_skip (F := Ideal) 6 _ _ _ r 2 (by decide), canon_skip (F := Ideal) 5 _ _ _ r 2 (by decide), canon_skip (F := Ideal) 4 _ _ _ r 2 (by decide), canon_skip (F := Ideal) 3 _ _ _ r 2 (by decide), canon_hit (F := Ideal) 2 _ _ _ r 2 rfl]
  simp only [View.readAt_eq_ld, harg2.read_unread, harg3.read_unread, View.ld_unit_zero (S := S32x16384) hz2]
  refine (pay17_apply x0 x1 _ r).trans ?_
  rw [readCov_col (F := Ideal) _ _ 2 _ r 2 rfl, canon_skip (F := Ideal) 1 _ _ _ r 2 (by decide), canon_skip (F := Ideal) 0 _ _ _ r 2 (by decide), init_other _ _ r 2 (by decide)]

theorem soutA_3 : sout0_A_0 (F := Ideal) c i arg2 harg2 arg3 harg3 arg4 harg4 arg5 harg5 hc0 hc1 x0 x1 (ix2 r (3 : Fin 128))
    = max ⊥ (tMax x1 r) := by
  unfold sout0_A_0
  rw [View.read_writes_junk_eq_canon]
  unfold kernelRun0_A
  dsimp only
  sl_unfold_words
  rw [canon_skip (F := Ideal) 6 _ _ _ r 3 (by decide), canon_skip (F := Ideal) 5 _ _ _ r 3 (by decide), canon_skip (F := Ideal) 4 _ _ _ r 3 (by decide), canon_hit (F := Ideal) 3 _ _ _ r 3 rfl]
  simp only [View.readAt_eq_ld, harg2.read_unread, harg3.read_unread, View.ld_unit_zero (S := S32x16384) hz2]
  refine (pay18_apply x1 _ r).trans ?_
  rw [readCov_col (F := Ideal) _ _ 3 _ r 3 rfl, init_at3]

theorem soutA_4 : sout0_A_0 (F := Ideal) c i arg2 harg2 arg3 harg3 arg4 harg4 arg5 harg5 hc0 hc1 x0 x1 (ix2 r (4 : Fin 128))
    = if (⊥ : EReal) < tMax x1 r then tAt x1 r (tMax x1 r)
      else if tMax x1 r = ⊥ then 0 + tAt x1 r (tMax x1 r)
      else 0 := by
  unfold sout0_A_0
  rw [View.read_writes_junk_eq_canon]
  unfold kernelRun0_A
  dsimp only
  sl_unfold_words
  rw [canon_skip (F := Ideal) 6 _ _ _ r 4 (by decide), canon_skip (F := Ideal) 5 _ _ _ r 4 (by decide), canon_hit (F := Ideal) 4 _ _ _ r 4 rfl]
  simp only [View.readAt_eq_ld, harg2.read_unread, harg3.read_unread, View.ld_unit_zero (S := S32x16384) hz2]
  refine (pay19_apply x1 _ _ r).trans ?_
  rw [readCov_col (F := Ideal) _ _ 3 _ r 3 rfl, init_at3, readCov_col (F := Ideal) _ _ 4 _ r 4 rfl, init_other _ _ r 4 (by decide)]

theorem soutA_5 : sout0_A_0 (F := Ideal) c i arg2 harg2 arg3 harg3 arg4 harg4 arg5 harg5 hc0 hc1 x0 x1 (ix2 r (5 : Fin 128))
    = if (⊥ : EReal) < tMax x1 r then tBoth x0 x1 r (tMax x1 r)
      else if tMax x1 r = ⊥ then 0 + tBoth x0 x1 r (tMax x1 r)
      else 0 := by
  unfold sout0_A_0
  rw [View.read_writes_junk_eq_canon]
  unfold kernelRun0_A
  dsimp only
  sl_unfold_words
  rw [canon_skip (F := Ideal) 6 _ _ _ r 5 (by decide), canon_hit (F := Ideal) 5 _ _ _ r 5 rfl]
  simp only [View.readAt_eq_ld, harg2.read_unread, harg3.read_unread, View.ld_unit_zero (S := S32x16384) hz2]
  refine (pay20_apply x0 x1 _ _ r).trans ?_
  rw [readCov_col (F := Ideal) _ _ 3 _ r 3 rfl, init_at3, readCov_col (F := Ideal) _ _ 5 _ r 5 rfl, init_other _ _ r 5 (by decide)]

theorem soutA_6 : sout0_A_0 (F := Ideal) c i arg2 harg2 arg3 harg3 arg4 harg4 arg5 harg5 hc0 hc1 x0 x1 (ix2 r (6 : Fin 128))
    = 0 + tHard x0 r := by
  unfold sout0_A_0
  rw [View.read_writes_junk_eq_canon]
  unfold kernelRun0_A
  dsimp only
  sl_unfold_words
  rw [canon_hit (F := Ideal) 6 _ _ _ r 6 rfl]
  simp only [View.readAt_eq_ld, harg2.read_unread, harg3.read_unread, View.ld_unit_zero (S := S32x16384) hz2]
  refine (pay1_apply x0 _ r).trans ?_
  rw [readCov_col (F := Ideal) _ _ 6 _ r 6 rfl, canon_skip (F := Ideal) 5 _ _ _ r 6 (by decide), canon_skip (F := Ideal) 4 _ _ _ r 6 (by decide), canon_skip (F := Ideal) 3 _ _ _ r 6 (by decide), canon_skip (F := Ideal) 2 _ _ _ r 6 (by decide), canon_skip (F := Ideal) 1 _ _ _ r 6 (by decide), canon_skip (F := Ideal) 0 _ _ _ r 6 (by decide), init_other _ _ r 6 (by decide)]

end CaseA

end Cert.KernelIdeal.Scratch

end
-- ==== Proof.Tiles.lean ====
/-
  The columns of a row, tile by tile: the 262144 columns are 16 consecutive tiles of 16384. The columns before
  tile K form a prefix; the prefix before tile K+1 is the prefix before tile K together with tile K, the two
  disjoint; nothing comes before tile 0 and everything before tile 16. Column l of tile k is column
  16384·k + l, so a sum or a maximum over a tile is the sum or maximum over its 16384 lanes.
-/
import Mathlib

namespace RowStats

open Finset

/-- The columns before tile K. -/
def pre (K : ℕ) : Finset (Fin 262144) := univ.filter fun c => c.val < K * 16384

/-- The columns of tile k. -/
def tile (k : ℕ) : Finset (Fin 262144) := univ.filter fun c => k * 16384 ≤ c.val ∧ c.val < (k + 1) * 16384

theorem pre_zero : pre 0 = ∅ := by
  ext c; simp [pre]

theorem pre_succ (K : ℕ) : pre (K + 1) = pre K ∪ tile K := by
  ext c
  simp only [pre, tile, mem_filter, mem_univ, true_and, mem_union]
  constructor
  · intro h
    by_cases h' : c.val < K * 16384
    · exact Or.inl h'
    · exact Or.inr ⟨Nat.le_of_not_lt h', h⟩
  · rintro (h | ⟨_, h⟩)
    · exact lt_of_lt_of_le h (Nat.mul_le_mul_right _ (Nat.le_succ K))
    · exact h

theorem pre_tile_disjoint (K : ℕ) : Disjoint (pre K) (tile K) := by
  rw [Finset.disjoint_left]
  intro c h1 h2
  simp only [pre, tile, mem_filter, mem_univ, true_and] at h1 h2
  exact absurd h1 (Nat.not_lt.mpr h2.1)

theorem pre_all : pre 16 = univ := by
  ext c
  simp only [pre, mem_filter, mem_univ, true_and, iff_true]
  exact c.isLt

/-- Column l of tile k. -/
def tileCol (k : Fin 16) (l : Fin 16384) : Fin 262144 :=
  ⟨k.val * 16384 + l.val, by have := k.isLt; have := l.isLt; omega⟩

theorem tileCol_injective (k : Fin 16) : Function.Injective (tileCol k) := by
  intro l l' h
  have := congrArg Fin.val h
  simp only [tileCol] at this
  exact Fin.ext (by omega)

theorem tile_eq_map (k : Fin 16) : tile k.val = univ.map ⟨tileCol k, tileCol_injective k⟩ := by
  ext c
  simp only [tile, mem_filter, mem_univ, true_and, mem_map, Function.Embedding.coeFn_mk]
  constructor
  · rintro ⟨h1, h2⟩
    refine ⟨⟨c.val - k.val * 16384, by omega⟩, Fin.ext ?_⟩
    simp only [tileCol]
    omega
  · rintro ⟨l, rfl⟩
    have := l.isLt
    simp only [tileCol]
    constructor <;> omega

theorem sum_tile {M : Type*} [AddCommMonoid M] (k : Fin 16) (g : Fin 262144 → M) :
    ∑ c ∈ tile k.val, g c = ∑ l : Fin 16384, g (tileCol k l) := by
  rw [tile_eq_map, Finset.sum_map]; rfl

theorem sup_tile (k : Fin 16) (g : Fin 262144 → EReal) :
    (tile k.val).sup g = (univ : Finset (Fin 16384)).sup fun l => g (tileCol k l) := by
  rw [tile_eq_map, Finset.sup_map]; rfl

end RowStats
-- ==== Proof.Step.lean ====
/-
  The seven running statistics of a row, tile by tile.

  Over a set s of columns of row R: the sum of the probabilities, the sum of the targets, the sum of their products,
  the maximum of the targets, the number of columns attaining that maximum, the number of those with probability
  above one half, and the number of columns with probability above one half. Over no columns the sums and counts
  are 0 and the maximum is bottom. Adding a tile disjoint from the columns seen so far: the sums and the plain
  count add; the maximum is the larger of the two maxima; a count of the columns attaining the maximum is the
  tile's own count when the tile's maximum is strictly larger, the sum of both counts on a tie, and the old count
  otherwise.
-/
import proofs.«110834_j10900626997865_2_alg».proof.Proof.Counting
import proofs.«110834_j10900626997865_2_alg».proof.Proof.Tiles

noncomputable section

namespace RowStats

open Finset

/-- The seven statistics of row R over the columns s. -/
structure Holds (P T : Arr) (R : Fin 64) (s : Finset (Fin 262144)) (a0 a1 a2 a3 a4 a5 a6 : EReal) : Prop where
  h0 : a0 = sumOf P R s
  h1 : a1 = sumOf T R s
  h2 : a2 = sumProd P T R s
  h3 : a3 = maxOf T R s
  h4 : a4 = cntAt T R s (maxOf T R s)
  h5 : a5 = cntBoth P T R s (maxOf T R s)
  h6 : a6 = cntHard P R s

/-- Over no columns: the sums and counts are zero, the maximum is bottom. -/
theorem holds_init (P T : Arr) (R : Fin 64) : Holds P T R (pre 0) 0 0 0 ⊥ 0 0 0 := by
  rw [pre_zero]
  refine ⟨?_, ?_, ?_, ?_, ?_, ?_, ?_⟩
  · exact Finset.sum_empty.symm
  · exact Finset.sum_empty.symm
  · exact Finset.sum_empty.symm
  · exact Finset.sup_empty.symm
  · exact Finset.sum_empty.symm
  · exact Finset.sum_empty.symm
  · exact Finset.sum_empty.symm

/-- The count of the columns of row R equal to M is the count of the points where the row's function is M. -/
theorem cntAt_eq_countAt (T : Arr) (R : Fin 64) (s : Finset (Fin 262144)) (M : EReal) :
    cntAt T R s M = countAt (fun c => T (Idealize.ShloMosaic.ValueIdx.ix2 R c)) s M := rfl

/-- The same for the count weighted by the indicator of a probability above one half. -/
theorem cntBoth_eq_countBoth (P T : Arr) (R : Fin 64) (s : Finset (Fin 262144)) (M : EReal) :
    cntBoth P T R s M
      = countBoth (fun c => half < P (Idealize.ShloMosaic.ValueIdx.ix2 R c))
          (fun c => T (Idealize.ShloMosaic.ValueIdx.ix2 R c)) s M := rfl

/-- The maximum of row R over a union is the larger of the two maxima. -/
theorem maxOf_union (T : Arr) (R : Fin 64) (s t : Finset (Fin 262144)) :
    maxOf T R (s ∪ t) = max (maxOf T R s) (maxOf T R t) :=
  sup_union_max (fun c => T (Idealize.ShloMosaic.ValueIdx.ix2 R c)) s t

/-- Adding tile K to the columns before it. -/
theorem holds_step (P T : Arr) (R : Fin 64) (K : ℕ) (a0 a1 a2 a3 a4 a5 a6 b0 b1 b2 b3 b4 b5 b6 : EReal)
    (h : Holds P T R (pre K) a0 a1 a2 a3 a4 a5 a6)
    (e0 : b0 = a0 + sumOf P R (tile K)) (e1 : b1 = a1 + sumOf T R (tile K)) (e2 : b2 = a2 + sumProd P T R (tile K))
    (e3 : b3 = max a3 (maxOf T R (tile K)))
    (e4 : b4 = if a3 < maxOf T R (tile K) then cntAt T R (tile K) (maxOf T R (tile K))
               else if maxOf T R (tile K) = a3 then a4 + cntAt T R (tile K) (maxOf T R (tile K)) else a4)
    (e5 : b5 = if a3 < maxOf T R (tile K) then cntBoth P T R (tile K) (maxOf T R (tile K))
               else if maxOf T R (tile K) = a3 then a5 + cntBoth P T R (tile K) (maxOf T R (tile K)) else a5)
    (e6 : b6 = a6 + cntHard P R (tile K)) :
    Holds P T R (pre (K + 1)) b0 b1 b2 b3 b4 b5 b6 := by
  obtain ⟨h0, h1, h2, h3, h4, h5, h6⟩ := h
  have hd : Disjoint (pre K) (tile K) := pre_tile_disjoint K
  rw [pre_succ]
  refine ⟨?_, ?_, ?_, ?_, ?_, ?_, ?_⟩
  · rw [e0, h0]; exact (Finset.sum_union hd).symm
  · rw [e1, h1]; exact (Finset.sum_union hd).symm
  · rw [e2, h2]; exact (Finset.sum_union hd).symm
  · rw [e3, h3]; exact (maxOf_union T R (pre K) (tile K)).symm
  · rw [e4, h4, h3, maxOf_union, cntAt_eq_countAt]
    exact (countAt_union (fun c => T (Idealize.ShloMosaic.ValueIdx.ix2 R c)) (pre K) (tile K) hd).symm
  · rw [e5, h5, h3, maxOf_union, cntBoth_eq_countBoth]
    exact (countBoth_union (fun c => half < P (Idealize.ShloMosaic.ValueIdx.ix2 R c))
      (fun c => T (Idealize.ShloMosaic.ValueIdx.ix2 R c)) (pre K) (tile K) hd).symm
  · rw [e6, h6]; exact (Finset.sum_union hd).symm

end RowStats

end
-- ==== Proof.TileBridge.lean ====
/-
  A block's row statistics are the specification's statistics of a tile.

  When row r of a block of 32 rows by 16384 lanes holds, lane by lane, the entries of row R of an argument array at
  the columns of tile k (lane l is column 16384·k + l), the block's lane sum, lane maximum and lane counts of row r
  are the specification's sum, maximum and counts of row R over tile k: a sum or a maximum over a tile is the sum or
  maximum over its 16384 lanes.
-/
import proofs.«110834_j10900626997865_2_alg».proof.Proof.TileStats
import proofs.«110834_j10900626997865_2_alg».proof.Proof.Tiles

noncomputable section

namespace Cert.KernelIdeal.TileBridge

open Cert.KernelIdeal Cert.KernelIdeal.TileStats Idealize.ShloMosaic ValueIdx Finset RowStats

/-- The lane sum of a row is the sum over the tile. -/
theorem tSum_eq (x : X) (Q : Arr) (R : Fin 64) (k : Fin 16) (r : Fin 32)
    (hx : ∀ l : Fin 16384, x (ix2 r l) = Q (ix2 R (tileCol k l))) : tSum x r = sumOf Q R (tile k.val) := by
  unfold tSum sumOf
  rw [sum_tile k (fun c => Q (ix2 R c))]
  exact Finset.sum_congr rfl fun l _ => hx l

/-- The lane sum of the products of a row is the sum of the products over the tile. -/
theorem tSumProd_eq (x0 x1 : X) (P T : Arr) (R : Fin 64) (k : Fin 16) (r : Fin 32)
    (h0 : ∀ l : Fin 16384, x0 (ix2 r l) = P (ix2 R (tileCol k l)))
    (h1 : ∀ l : Fin 16384, x1 (ix2 r l) = T (ix2 R (tileCol k l))) :
    tSumProd x0 x1 r = sumProd P T R (tile k.val) := by
  unfold tSumProd sumProd
  rw [sum_tile k (fun c => P (ix2 R c) * T (ix2 R c))]
  exact Finset.sum_congr rfl fun l _ => by rw [h0 l, h1 l]

/-- The lane maximum of a row is the maximum over the tile. -/
theorem tMax_eq (x1 : X) (T : Arr) (R : Fin 64) (k : Fin 16) (r : Fin 32)
    (h1 : ∀ l : Fin 16384, x1 (ix2 r l) = T (ix2 R (tileCol k l))) : tMax x1 r = maxOf T R (tile k.val) := by
  unfold tMax maxOf
  rw [sup_tile k (fun c => T (ix2 R c))]
  exact congrArg (univ : Finset (Fin 16384)).sup (funext fun l => h1 l)

/-- The number of lanes of a row above one half is the count over the tile. -/
theorem tHard_eq (x0 : X) (P : Arr) (R : Fin 64) (k : Fin 16) (r : Fin 32)
    (h0 : ∀ l : Fin 16384, x0 (ix2 r l) = P (ix2 R (tileCol k l))) : tHard x0 r = cntHard P R (tile k.val) := by
  unfold tHard cntHard
  rw [sum_tile k (fun c => ind (half < P (ix2 R c)))]
  exact Finset.sum_congr rfl fun l _ => by rw [h0 l]

/-- The number of lanes of a row equal to M is the count over the tile. -/
theorem tAt_eq (x1 : X) (T : Arr) (R : Fin 64) (k : Fin 16) (r : Fin 32) (M : EReal)
    (h1 : ∀ l : Fin 16384, x1 (ix2 r l) = T (ix2 R (tileCol k l))) : tAt x1 r M = cntAt T R (tile k.val) M := by
  unfold tAt cntAt
  rw [sum_tile k (fun c => ind (T (ix2 R c) = M))]
  exact Finset.sum_congr rfl fun l _ => by rw [h1 l]

/-- The number of lanes of a row above one half and equal to M is the count over the tile. -/
theorem tBoth_eq (x0 x1 : X) (P T : Arr) (R : Fin 64) (k : Fin 16) (r : Fin 32) (M : EReal)
    (h0 : ∀ l : Fin 16384, x0 (ix2 r l) = P (ix2 R (tileCol k l)))
    (h1 : ∀ l : Fin 16384, x1 (ix2 r l) = T (ix2 R (tileCol k l))) :
    tBoth x0 x1 r M = cntBoth P T R (tile k.val) M := by
  unfold tBoth cntBoth
  rw [sum_tile k (fun c => ind (half < P (ix2 R c)) * ind (T (ix2 R c) = M))]
  exact Finset.sum_congr rfl fun l _ => by rw [h0 l, h1 l]

end Cert.KernelIdeal.TileBridge

end
-- ==== Proof.Invariant.lean ====
/-
  What the scratch holds after every grid point. The grid has 2 row tiles of 16 column tiles; point n works on
  row tile n / 16 and column tile n % 16. After point n, row r of the scratch holds, in columns 0 to 6, the seven
  statistics of row 32·(n / 16) + r of the arguments over the columns of the tiles 0 … n % 16: by induction on the
  point, the first point of a row tile starting from the initial contents (zeros, minus infinity in column 3), every
  other point from what the point before left. A block of an argument read at (r, l) is the argument at row
  32·(n / 16) + r, column 16384·(n % 16) + l.
-/
import proofs.«110834_j10900626997865_2_alg».proof.Proof.ScratchCases
import proofs.«110834_j10900626997865_2_alg».proof.Proof.Step
import proofs.«110834_j10900626997865_2_alg».proof.Proof.TileBridge

noncomputable section

namespace Cert.KernelIdeal.Inv

open Cert.KernelIdeal Cert.KernelIdeal.Gen Cert.KernelIdeal.TileStats Cert.KernelIdeal.TileBridge Cert.KernelIdeal.Scratch
open Idealize.ShloMosaic Idealize.ShloMosaic.TcCoe ValueIdx RowStats

variable (m : (ℓ : Loc nD τ sig) → Buf (Elt Ideal) ℓ)

/-- Row r of row tile b, among the 64 rows. -/
def rowOf (b : ℕ) (r : Fin 32) : Fin 64 := ⟨(32 * b + r.val) % 64, Nat.mod_lt _ (by decide)⟩

/-- The two argument arrays as the region finds them. -/
abbrev argP (c : Dev nD) : Arr := V m c main_arg0
abbrev argT (c : Dev nD) : Arr := V m c main_arg1

/-- The block index of each window at a point: row tile n / 16, column tile n % 16 (the output: column tile 0). -/
theorem idx0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem idx1 : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The column tile of a point. -/
def tileOf (t : Fin cfg0.N) : Fin 16 := ⟨t.val % 16, Nat.mod_lt _ (by decide)⟩

/-- The probs block of point t at (r, l) is the argument at row 32·(t / 16) + r, column 16384·(t % 16) + l. -/
theorem iblk0_apply (c : Dev nD) (t : Fin cfg0.N) (r : Fin 32) (l : Fin 16384) :
    (iblk m c 0 t : Vec Ideal S32x16384 .f32) (ix2 r l) = argP m c (ix2 (rowOf (t.val / 16) r) (tileCol (tileOf t) l)) := by
  have hN : t.val < 32 := lt_of_lt_of_eq t.isLt (show cfg0.N = 32 from N_0)
  unfold iblk
  rw [View.read_apply]
  show V m c main_arg0 _ = V m c main_arg0 _
  refine congrArg (V m c main_arg0) (funext fun a => Fin.ext ?_)
  match a with
  | ⟨0, _⟩ =>
    show win0_0.index t 0 * 32 + 1 * r.val = (32 * (t.val / 16) + r.val) % 64
    rw [(idx0 t).1]; have := r.isLt; omega
  | ⟨1, _⟩ =>
    show win0_0.index t 1 * 16384 + 1 * l.val = t.val % 16 * 16384 + l.val
    rw [(idx0 t).2]; omega

/-- The same for the targets block. -/
theorem iblk1_apply (c : Dev nD) (t : Fin cfg0.N) (r : Fin 32) (l : Fin 16384) :
    (iblk m c 1 t : Vec Ideal S32x16384 .f32) (ix2 r l) = argT m c (ix2 (rowOf (t.val / 16) r) (tileCol (tileOf t) l)) := by
  have hN : t.val < 32 := lt_of_lt_of_eq t.isLt (show cfg0.N = 32 from N_0)
  unfold iblk
  rw [View.read_apply]
  show V m c main_arg1 _ = V m c main_arg1 _
  refine congrArg (V m c main_arg1) (funext fun a => Fin.ext ?_)
  match a with
  | ⟨0, _⟩ =>
    show win0_1.index t 0 * 32 + 1 * r.val = (32 * (t.val / 16) + r.val) % 64
    rw [(idx1 t).1]; have := r.isLt; omega
  | ⟨1, _⟩ =>
    show win0_1.index t 1 * 16384 + 1 * l.val = t.val % 16 * 16384 + l.val
    rw [(idx1 t).2]; omega

/-- One point's step, from the seven column equations: if row r held the statistics over the tiles before tile k
    and the point's blocks are tile k of row R, it now holds them over the tiles up to k. -/
theorem step_of_eqs (P T : Arr) (R : Fin 64) (k : Fin 16) (x0 x1 : Vec Ideal S32x16384 .f32) (r : Fin 32)
    (hx0 : ∀ l : Fin 16384, x0 (ix2 r l) = P (ix2 R (tileCol k l)))
    (hx1 : ∀ l : Fin 16384, x1 (ix2 r l) = T (ix2 R (tileCol k l)))
    (a0 a1 a2 a3 a4 a5 a6 b0 b1 b2 b3 b4 b5 b6 : EReal) (h : Holds P T R (pre k.val) a0 a1 a2 a3 a4 a5 a6)
    (e0 : b0 = a0 + tSum x0 r) (e1 : b1 = a1 + tSum x1 r) (e2 : b2 = a2 + tSumProd x0 x1 r)
    (e3 : b3 = max a3 (tMax x1 r))
    (e4 : b4 = if a3 < tMax x1 r then tAt x1 r (tMax x1 r)
               else if tMax x1 r = a3 then a4 + tAt x1 r (tMax x1 r) else a4)
    (e5 : b5 = if a3 < tMax x1 r then tBoth x0 x1 r (tMax x1 r)
               else if tMax x1 r = a3 then a5 + tBoth x0 x1 r (tMax x1 r) else a5)
    (e6 : b6 = a6 + tHard x0 r) :
    Holds P T R (pre (k.val + 1)) b0 b1 b2 b3 b4 b5 b6 := by
  rw [tSum_eq x0 P R k r hx0] at e0
  rw [tSum_eq x1 T R k r hx1] at e1
  rw [tSumProd_eq x0 x1 P T R k r hx0 hx1] at e2
  rw [tMax_eq x1 T R k r hx1] at e3 e4 e5
  rw [tAt_eq x1 T R k r _ hx1] at e4
  rw [tBoth_eq x0 x1 P T R k r _ hx0 hx1] at e5
  rw [tHard_eq x0 P R k r hx0] at e6
  exact holds_step P T R k.val a0 a1 a2 a3 a4 a5 a6 b0 b1 b2 b3 b4 b5 b6 h e0 e1 e2 e3 e4 e5 e6

/-- The statement at point t, row r. -/
def HoldsAt (c : Dev nD) (t : Fin cfg0.N) (r : Fin 32) : Prop :=
  Holds (argP m c) (argT m c) (rowOf (t.val / 16) r) (pre (t.val % 16 + 1))
    ((outsAt0 m c t.val t.isLt).2 (ix2 r (0 : Fin 128))) ((outsAt0 m c t.val t.isLt).2 (ix2 r (1 : Fin 128)))
    ((outsAt0 m c t.val t.isLt).2 (ix2 r (2 : Fin 128))) ((outsAt0 m c t.val t.isLt).2 (ix2 r (3 : Fin 128)))
    ((outsAt0 m c t.val t.isLt).2 (ix2 r (4 : Fin 128))) ((outsAt0 m c t.val t.isLt).2 (ix2 r (5 : Fin 128)))
    ((outsAt0 m c t.val t.isLt).2 (ix2 r (6 : Fin 128)))

/-- The first point of a row tile. -/
theorem holdsAt_first (c : Dev nD) (t : Fin cfg0.N) (h0 : t.val % 16 = 0) (r : Fin 32) : HoldsAt m c t r := by
  have h1 : ¬t.val % 16 = 15 := by omega
  have e := congrArg Prod.snd (outsAt0_A m c t h0 h1)
  have hinit : Holds (argP m c) (argT m c) (rowOf (t.val / 16) r) (pre (tileOf t).val) 0 0 0 ⊥ 0 0 0 := by
    show Holds _ _ _ (pre (t.val % 16)) 0 0 0 ⊥ 0 0 0
    rw [h0]; exact holds_init _ _ _
  unfold HoldsAt
  rw [e]
  exact step_of_eqs (argP m c) (argT m c) (rowOf (t.val / 16) r) (tileOf t) (iblk m c 0 t) (iblk m c 1 t) r
    (iblk0_apply m c t r) (iblk1_apply m c t r) 0 0 0 ⊥ 0 0 0 _ _ _ _ _ _ _ hinit
    (soutA_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)
    (soutA_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)
    (soutA_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)
    (soutA_3 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)
    (soutA_4 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)
    (soutA_5 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)
    (soutA_6 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) r)

/-- Any later point of a row tile, from the point before. -/
theorem holdsAt_next (c : Dev nD) (t : Fin cfg0.N) (h0 : ¬t.val % 16 = 0) (r : Fin 32)
    (ih : HoldsAt m c ⟨t.val - 1, Nat.lt_of_le_of_lt (Nat.sub_le _ _) t.isLt⟩ r) : HoldsAt m c t r := by
  have hq : (t.val - 1) / 16 = t.val / 16 := by omega
  have hm : (t.val - 1) % 16 + 1 = t.val % 16 := by omega
  unfold HoldsAt at ih
  dsimp only at ih
  rw [hq, hm] at ih
  unfold HoldsAt
  by_cases h1 : t.val % 16 = 15
  · have e := congrArg Prod.snd (outsAt0_C m c t h0 h1)
    rw [e]
    exact step_of_eqs (argP m c) (argT m c) (rowOf (t.val / 16) r) (tileOf t) (iblk m c 0 t) (iblk m c 1 t) r
      (iblk0_apply m c t r) (iblk1_apply m c t r) _ _ _ _ _ _ _ _ _ _ _ _ _ _ ih
      (soutC_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
      (soutC_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
      (soutC_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
      (soutC_3 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
      (soutC_4 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
      (soutC_5 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
      (soutC_6 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 r)
  · have e := congrArg Prod.snd (outsAt0_B m c t h0 h1)
    rw [e]
    exact step_of_eqs (argP m c) (argT m c) (rowOf (t.val / 16) r) (tileOf t) (iblk m c 0 t) (iblk m c 1 t) r
      (iblk0_apply m c t r) (iblk1_apply m c t r) _ _ _ _ _ _ _ _ _ _ _ _ _ _ ih
      (soutB_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)
      (soutB_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)
      (soutB_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)
      (soutB_3 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)
      (soutB_4 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)
      (soutB_5 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)
      (soutB_6 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 r)

/-- After every point, every row of the scratch holds the statistics over the tiles so far. -/
theorem holdsAt (c : Dev nD) : ∀ (n : ℕ) (hn : n < cfg0.N) (r : Fin 32), HoldsAt m c ⟨n, hn⟩ r
  | 0, hn, r => holdsAt_first m c ⟨0, hn⟩ rfl r
  | n + 1, hn, r => by
    by_cases h0 : (n + 1) % 16 = 0
    · exact holdsAt_first m c ⟨n + 1, hn⟩ h0 r
    · exact holdsAt_next m c ⟨n + 1, hn⟩ h0 r (holdsAt c n (Nat.lt_of_succ_lt hn) r)

end Cert.KernelIdeal.Inv

end
-- ==== Proof.KernelTail.lean ====
/-
  The lines of the kernel's program after its one region, as one function of the statistics array the region
  leaves (64 rows, 128 columns, of which columns 0 to 6 are read): column 3 is the row maximum of the targets,
  columns 0, 1, 2 the three sums, columns 4, 5, 6 the three counts. From them, row by row: the number of agreeing
  columns (a choice on the sign of the maximum), the smoothed score, the score replaced by one where every column
  agrees, and the sum over the rows of one minus it.
-/
import proofs.«110834_j10900626997865_2_alg».proof.Proof.Gen.KernelIdeal.Frame
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.Pipeline (Dat)

/-- Column j of the statistics array, as a vector over the 64 rows. -/
def col (A : FVec Ideal S64x128 .f32) (j : ℕ) (h : S64x128.Slices ![0, j] S64x1) : FVec Ideal S64 .f32 :=
  fun i => shapeCast S64 (extractStridedSlice S64x1 ![0, j] A h) shapeCasts_S64x1_S64 i

/-- A float word broadcast over the 64 rows. -/
def lit (b : BitVec 32) : FVec Ideal S64 .f32 := broadcastInDim S64 ![] bcast_S_S64 (constant (F := Ideal) S_ .f32 b)

/-- The number of agreeing columns, row by row, from the maximum and the three counts. -/
def agreeVec (A : FVec Ideal S64x128 .f32) : FVec Ideal S64 .f32 :=
  select (cmpf .ogt (col A 3 slices_S64x128_S64x1_0_3) (lit 0x00000000#32))
    (addf (subf (subf (lit 0x48800000#32) (col A 6 slices_S64x128_S64x1_0_6)) (col A 4 slices_S64x128_S64x1_0_4))
      (mulf (lit 0x40000000#32) (col A 5 slices_S64x128_S64x1_0_5)))
    (subf (lit 0x48800000#32) (col A 6 slices_S64x128_S64x1_0_6))

/-- The smoothed score, row by row, from the three sums. -/
def scoreVec (A : FVec Ideal S64x128 .f32) : FVec Ideal S64 .f32 :=
  Host.divf (F := Ideal) (addf (col A 2 slices_S64x128_S64x1_0_2) (lit 0x3F800000#32))
    (addf (subf (addf (col A 0 slices_S64x128_S64x1_0_0) (col A 1 slices_S64x128_S64x1_0_1)) (col A 2 slices_S64x128_S64x1_0_2))
      (lit 0x3F800000#32))

/-- The loss from the statistics array. -/
def tail (A : FVec Ideal S64x128 .f32) : FVec Ideal S_ .f32 :=
  Host.reduceAdd (F := Ideal)
    (subf (lit 0x3F800000#32)
      (select (cmpf .oeq (agreeVec A) (lit 0x48800000#32)) (lit 0x3F800000#32) (scoreVec A)))
    (constant (F := Ideal) S_ .f32 0x00000000#32) reducesTo_S64_S_d0 h_S_

/-! A value written into, or read from, the buffers of the two inlined selects is the value itself. -/

theorem toBuf_v36 (X : (⟨S64, .f32⟩ : BufTy).Contents (Elt Ideal)) : (TRef.of (T := ⟨S64, .f32⟩) main_v36).toBuf X = X := rfl
theorem ofBuf_v34 (X : (⟨S64, .i1⟩ : BufTy).Contents (Elt Ideal)) : (TRef.of (T := ⟨S64, .i1⟩) main_v34).ofBuf X = X := rfl
theorem ofBuf_v35 (X : (⟨S64, .f32⟩ : BufTy).Contents (Elt Ideal)) : (TRef.of (T := ⟨S64, .f32⟩) main_v35).ofBuf X = X := rfl
theorem ofBuf_v32 (X : (⟨S64, .f32⟩ : BufTy).Contents (Elt Ideal)) : (TRef.of (T := ⟨S64, .f32⟩) main_v32).ofBuf X = X := rfl
theorem toBuf_v25 (X : (⟨S64, .f32⟩ : BufTy).Contents (Elt Ideal)) : (TRef.of (T := ⟨S64, .f32⟩) main_v25).toBuf X = X := rfl
theorem ofBuf_v16 (X : (⟨S64, .i1⟩ : BufTy).Contents (Elt Ideal)) : (TRef.of (T := ⟨S64, .i1⟩) main_v16).ofBuf X = X := rfl
theorem ofBuf_v22 (X : (⟨S64, .f32⟩ : BufTy).Contents (Elt Ideal)) : (TRef.of (T := ⟨S64, .f32⟩) main_v22).ofBuf X = X := rfl
theorem ofBuf_v24 (X : (⟨S64, .f32⟩ : BufTy).Contents (Elt Ideal)) : (TRef.of (T := ⟨S64, .f32⟩) main_v24).ofBuf X = X := rfl

variable (m : (ℓ : Loc nD τ sig) → Buf (Elt Ideal) ℓ)

/-- What the lines after the region leave in the result, from the region's output array. -/
theorem tail_run (c : Dev nD) :
    Pipeline.afterTail₀ cfgs (dats m) 0 (V0 m) [hostOps1, hostOps1_1, hostOps1_2, hostOps1_3, hostOps1_4] c main_v39
      = tail ((dats m 0 c).arrAt 2 cfg0.N) := by
  unfold Pipeline.afterTail₀
  simp only [hostOps1, hostOps1_1, hostOps1_2, hostOps1_3, hostOps1_4, List.flatten_cons, List.flatten_nil, List.append_nil,
    List.cons_append, List.nil_append]
  after_results_simp
  have e := Pipeline.withArrays_arr spec0 launch0.win.arr_inj c (V0 m c) (fun w => (dats m 0 c).arrAt w (cfgs 0).N) 2
  rw [show Pipeline.withArrays (cfgs 0).spec c (V0 m c) (fun w => (dats m 0 c).arrAt w (cfgs 0).N) (Proc.tc.devRef main_v0)
      = (dats m 0 c).arrAt 2 (cfgs 0).N from e]
  rw [toBuf_v36, ofBuf_v34, ofBuf_v35, ofBuf_v32, toBuf_v25, ofBuf_v16, ofBuf_v22, ofBuf_v24]
  rfl

end Cert.KernelIdeal.Tail

end
-- ==== Proof.KernelTailRead.lean ====
/-
  The kernel's closing lines read at a row. From the statistics array A (64 rows; columns 0 to 6 hold the three sums, the
  row maximum and the three counts), row R of each intermediate vector is:
    a column of A            the entry A(R, j);
    a broadcast float word   the extended real the word denotes;
    the agreement count      262144 - A(R,6) - A(R,4) + 2·A(R,5) when 0 < A(R,3), and 262144 - A(R,6) otherwise;
    the score                (A(R,2) + 1) / (A(R,0) + A(R,1) - A(R,2) + 1);
    the row's term           1 - (1 when the agreement count is 262144, the score otherwise).
  When the seven columns are the specification's statistics of the two argument arrays, the row's term is the
  specification's row term, and the closing sum over the 64 rows, started from zero, is the specification's loss.
-/
import proofs.«110834_j10900626997865_2_alg».proof.Proof.KernelTail
import proofs.«110834_j10900626997865_2_alg».proof.Proof.LibColumn
import proofs.«110834_j10900626997865_2_alg».proof.Proof.Spec
import Idealize.ShloMosaic.Lib.ValueIdx
import Idealize.ShloMosaic.PureOps.Ideal.Laws
import Idealize.ShloMosaic.Lib.Pipeline.Value

noncomputable section

namespace Cert.KernelIdeal.TailRead

open Cert.KernelIdeal Cert.KernelIdeal.Gen Cert.KernelIdeal.Tail Idealize.ShloMosaic Idealize.ShloMosaic.StableHlo ValueIdx Finset

/-- Column j of the array, read at row R, is the entry (R, j). -/
theorem col_apply (A : FVec Ideal S64x128 .f32) (j : Fin 128) (h : S64x128.Slices ![0, j.val] S64x1) (R : Fin 64) :
    col A j.val h (ix1 R) = A (ix2 R j) := by
  unfold col
  refine (ColumnIdx.shapeCast_a1_a_apply _ shapeCasts_S64x1_S64 R).trans ?_
  unfold extractStridedSlice
  refine congrArg A (funext fun a => Fin.ext ?_)
  match a with
  | ⟨0, _⟩ => show 0 + R.val = R.val; omega
  | ⟨1, _⟩ => show j.val + 0 = j.val; omega

theorem col0 (A : FVec Ideal S64x128 .f32) (R : Fin 64) :
    col A 0 slices_S64x128_S64x1_0_0 (ix1 R) = A (ix2 R (0 : Fin 128)) := col_apply A 0 _ R
theorem col1 (A : FVec Ideal S64x128 .f32) (R : Fin 64) :
    col A 1 slices_S64x128_S64x1_0_1 (ix1 R) = A (ix2 R (1 : Fin 128)) := col_apply A 1 _ R
theorem col2 (A : FVec Ideal S64x128 .f32) (R : Fin 64) :
    col A 2 slices_S64x128_S64x1_0_2 (ix1 R) = A (ix2 R (2 : Fin 128)) := col_apply A 2 _ R
theorem col3 (A : FVec Ideal S64x128 .f32) (R : Fin 64) :
    col A 3 slices_S64x128_S64x1_0_3 (ix1 R) = A (ix2 R (3 : Fin 128)) := col_apply A 3 _ R
theorem col4 (A : FVec Ideal S64x128 .f32) (R : Fin 64) :
    col A 4 slices_S64x128_S64x1_0_4 (ix1 R) = A (ix2 R (4 : Fin 128)) := col_apply A 4 _ R
theorem col5 (A : FVec Ideal S64x128 .f32) (R : Fin 64) :
    col A 5 slices_S64x128_S64x1_0_5 (ix1 R) = A (ix2 R (5 : Fin 128)) := col_apply A 5 _ R
theorem col6 (A : FVec Ideal S64x128 .f32) (R : Fin 64) :
    col A 6 slices_S64x128_S64x1_0_6 (ix1 R) = A (ix2 R (6 : Fin 128)) := col_apply A 6 _ R

/-- A broadcast float word reads, everywhere, the extended real the word denotes. -/
theorem lit_apply (b : BitVec 32) (i : S64.Idx) : lit b i = Ideal.ofBits .f32 b := by
  unfold lit
  exact broadcastInDim_apply _ bcast_S_S64 (constant (F := Ideal) S_ .f32 b) i (fun a => a.elim0) (fun a => a.elim0)

/-- A choice on a strict comparison of extended reals is an if-then-else on the inequality. -/
theorem select_ogt {α : Type} (x y : EReal) (a b : α) :
    Scalar.select (FloatOps.cmpf (F := Ideal) (φ := .f32) .ogt x y) a b = if y < x then a else b := by
  by_cases h : y < x
  · rw [if_pos h]
    show Scalar.select (BitVec.ofBool (decide (y < x))) a b = a
    rw [decide_eq_true h]
    exact select_one a b
  · rw [if_neg h]
    show Scalar.select (BitVec.ofBool (decide (y < x))) a b = b
    rw [decide_eq_false h]
    exact select_zero a b

/-- A choice on an equality test of extended reals is an if-then-else on the equality. -/
theorem select_oeq {α : Type} (x y : EReal) (a b : α) :
    Scalar.select (FloatOps.cmpf (F := Ideal) (φ := .f32) .oeq x y) a b = if x = y then a else b := by
  by_cases h : x = y
  · rw [if_pos h]
    show Scalar.select (BitVec.ofBool (decide (x = y))) a b = a
    rw [decide_eq_true h]
    exact select_one a b
  · rw [if_neg h]
    show Scalar.select (BitVec.ofBool (decide (x = y))) a b = b
    rw [decide_eq_false h]
    exact select_zero a b

/-- The host's quotient at an index is the division of the elements. -/
theorem hostDivf_at (a b : FVec Ideal S64 .f32) (i : S64.Idx) :
    Host.divf (F := Ideal) a b i = Ideal.div (a i) (b i) := rfl

/-- The agreement count at row R. -/
theorem agreeVec_apply (A : FVec Ideal S64x128 .f32) (R : Fin 64) :
    agreeVec A (ix1 R) =
      if 0 < A (ix2 R (3 : Fin 128)) then
        262144 - A (ix2 R (6 : Fin 128)) - A (ix2 R (4 : Fin 128)) + 2 * A (ix2 R (5 : Fin 128))
      else 262144 - A (ix2 R (6 : Fin 128)) := by
  unfold agreeVec
  rw [select_apply, cmpf_apply, select_ogt, addf_apply, subf_apply, subf_apply, mulf_apply]
  simp only [col3, col4, col5, col6, lit_apply, RowStats.ofBits_zero, RowStats.ofBits_two, RowStats.ofBits_cols]

/-- The score at row R. -/
theorem scoreVec_apply (A : FVec Ideal S64x128 .f32) (R : Fin 64) :
    scoreVec A (ix1 R) =
      Ideal.div (A (ix2 R (2 : Fin 128)) + 1)
        (A (ix2 R (0 : Fin 128)) + A (ix2 R (1 : Fin 128)) - A (ix2 R (2 : Fin 128)) + 1) := by
  unfold scoreVec
  rw [hostDivf_at, addf_apply, addf_apply, subf_apply, addf_apply]
  simp only [col0, col1, col2, lit_apply, RowStats.ofBits_one]

/-- The row's term of the closing sum, at row R. -/
theorem term_apply (A : FVec Ideal S64x128 .f32) (R : Fin 64) :
    subf (lit 0x3F800000#32)
        (select (cmpf .oeq (agreeVec A) (lit 0x48800000#32)) (lit 0x3F800000#32) (scoreVec A)) (ix1 R)
      = 1 - (if agreeVec A (ix1 R) = 262144 then 1 else scoreVec A (ix1 R)) := by
  rw [subf_apply, select_apply, cmpf_apply, select_oeq]
  simp only [lit_apply, RowStats.ofBits_one, RowStats.ofBits_cols]

/-- With the seven columns the specification's statistics, the agreement count is the specification's. -/
theorem agree_eq (A : FVec Ideal S64x128 .f32) (P T : RowStats.Arr) (R : Fin 64)
    (h3 : A (ix2 R (3 : Fin 128)) = RowStats.maxOf T R univ)
    (h4 : A (ix2 R (4 : Fin 128)) = RowStats.cntAt T R univ (RowStats.maxOf T R univ))
    (h5 : A (ix2 R (5 : Fin 128)) = RowStats.cntBoth P T R univ (RowStats.maxOf T R univ))
    (h6 : A (ix2 R (6 : Fin 128)) = RowStats.cntHard P R univ) :
    agreeVec A (ix1 R) = RowStats.agree P T R := by
  rw [agreeVec_apply, h3, h4, h5, h6]
  rfl

/-- With the three sums the specification's, the score is the specification's. -/
theorem score_eq (A : FVec Ideal S64x128 .f32) (P T : RowStats.Arr) (R : Fin 64)
    (h0 : A (ix2 R (0 : Fin 128)) = RowStats.sumOf P R univ)
    (h1 : A (ix2 R (1 : Fin 128)) = RowStats.sumOf T R univ)
    (h2 : A (ix2 R (2 : Fin 128)) = RowStats.sumProd P T R univ) :
    scoreVec A (ix1 R) = RowStats.score P T R := by
  rw [scoreVec_apply, h0, h1, h2]
  rfl

open Idealize.ShloMosaic ValueIdx Finset in
theorem tail_eq_loss (A : FVec Ideal Cert.KernelIdeal.S64x128 .f32) (P T : RowStats.Arr)
    (h0 : ∀ R : Fin 64, A (ix2 R (0 : Fin 128)) = RowStats.sumOf P R univ)
    (h1 : ∀ R : Fin 64, A (ix2 R (1 : Fin 128)) = RowStats.sumOf T R univ)
    (h2 : ∀ R : Fin 64, A (ix2 R (2 : Fin 128)) = RowStats.sumProd P T R univ)
    (h3 : ∀ R : Fin 64, A (ix2 R (3 : Fin 128)) = RowStats.maxOf T R univ)
    (h4 : ∀ R : Fin 64, A (ix2 R (4 : Fin 128)) = RowStats.cntAt T R univ (RowStats.maxOf T R univ))
    (h5 : ∀ R : Fin 64, A (ix2 R (5 : Fin 128)) = RowStats.cntBoth P T R univ (RowStats.maxOf T R univ))
    (h6 : ∀ R : Fin 64, A (ix2 R (6 : Fin 128)) = RowStats.cntHard P R univ) :
    Cert.KernelIdeal.Tail.tail A = fun _ => RowStats.loss P T := by
  funext i
  have hrow : ∀ j : S64.Idx,
      subf (lit 0x3F800000#32)
          (select (cmpf .oeq (agreeVec A) (lit 0x48800000#32)) (lit 0x3F800000#32) (scoreVec A)) j
        = RowStats.lossRow P T (j 0) := by
    intro j
    obtain ⟨R, rfl⟩ : ∃ R : Fin 64, j = ix1 R := ⟨j 0, eq_ix1 j⟩
    rw [term_apply, agree_eq A P T R (h3 R) (h4 R) (h5 R) (h6 R), score_eq A P T R (h0 R) (h1 R) (h2 R)]
    rfl
  unfold Cert.KernelIdeal.Tail.tail
  generalize subf (lit 0x3F800000#32)
      (select (cmpf .oeq (agreeVec A) (lit 0x48800000#32)) (lit 0x3F800000#32) (scoreVec A)) = y0 at hrow ⊢
  simp only [Host.reduceAdd, Ideal.hostReduceAdd_def]
  refine (Ideal.hostReduceAdd_total reducesTo_S64_S_d0 (fun b => b.elim0) y0 _ i).trans ?_
  unfold RowStats.loss
  exact congrArg₂ (· + ·) RowStats.ofBits_zero (Finset.sum_congr rfl fun j _ => hrow j)

end Cert.KernelIdeal.TailRead

end
-- ==== Proof.KernelValue.lean ====
/-
  The kernel's result. At the last point of a row tile (column tile 15) the output block is the scratch, which by
  then holds, row by row, the seven statistics over all 262144 columns; the two row tiles' blocks cover the
  64-by-128 output array, so its columns 0 to 6 are the statistics of the 64 rows; the lines after the region turn
  them into the loss.
-/
import proofs.«110834_j10900626997865_2_alg».proof.Proof.Invariant
import proofs.«110834_j10900626997865_2_alg».proof.Proof.KernelTail
import proofs.«110834_j10900626997865_2_alg».proof.Proof.KernelTailRead

noncomputable section

namespace Cert.KernelIdeal.KValue

open Cert.KernelIdeal Cert.KernelIdeal.Gen Cert.KernelIdeal.Scratch Cert.KernelIdeal.Inv
open Idealize.ShloMosaic Idealize.ShloMosaic.TcCoe Idealize.SL.Sem ValueIdx RowStats Finset
open Idealize.ShloMosaic.Pipeline (Dat)

variable (m : (ℓ : Loc nD τ sig) → Buf (Elt Ideal) ℓ) (ρ : Dev nD → PrngReg)

/-- What a writing-back point writes back is the scratch as it leaves it. -/
theorem flushed_eq (c : Dev nD) (t : Fin cfg0.N) (hf : (cfg0.win 2).flush t = true) :
    (dats m 0 c).flushed 2 t = (outsAt0 m c t.val t.isLt).2 := by
  have h15 : t.val % 16 = 15 := (flush0_2 t).mp hf
  have h0 : ¬t.val % 16 = 0 := by omega
  show (cfg0.win 2).cut (grid0.coords t) ((dats m 0 c).after 2 t) = _
  rw [after0_2, outsAt0_C m c t h0 h15]
  dsimp only
  rw [outC_eq]
  rfl

/-- What an element of the output array holds, if it is in one of the columns 0 to 6: that statistic of its row. -/
def ColProp (c : Dev nD) (i : S64x128.Idx) (v : EReal) : Prop :=
  ∀ R : Fin 64, (i 0).val = R.val →
    ((i 1).val = 0 → v = sumOf (argP m c) R univ) ∧ ((i 1).val = 1 → v = sumOf (argT m c) R univ) ∧
    ((i 1).val = 2 → v = sumProd (argP m c) (argT m c) R univ) ∧ ((i 1).val = 3 → v = maxOf (argT m c) R univ) ∧
    ((i 1).val = 4 → v = cntAt (argT m c) R univ (maxOf (argT m c) R univ)) ∧
    ((i 1).val = 5 → v = cntBoth (argP m c) (argT m c) R univ (maxOf (argT m c) R univ)) ∧
    ((i 1).val = 6 → v = cntHard (argP m c) R univ)

/-- Every element a writing-back point writes has the property. -/
theorem flushed_prop (c : Dev nD) (t : Fin cfg0.N) (hf : (cfg0.win 2).flush t = true) (r : Fin 32) (j : Fin 128) :
    ColProp m c (((cfg0.win 2).blk t).view.emb (ix2 r j)) ((dats m 0 c).flushed 2 t (ix2 r j)) := by
  have hN : t.val < 32 := lt_of_lt_of_eq t.isLt (show cfg0.N = 32 from N_0)
  have h15 : t.val % 16 = 15 := (flush0_2 t).mp hf
  rw [flushed_eq m c t hf]
  have H := holdsAt m c t.val t.isLt r
  unfold HoldsAt at H
  dsimp only at H
  rw [show t.val % 16 + 1 = 16 from by omega, pre_all] at H
  intro R hR
  have e0 : ((((cfg0.win 2).blk t).view.emb (ix2 r j)) 0).val = win0_2.index t 0 * 32 + 1 * r.val := rfl
  have e1 : ((((cfg0.win 2).blk t).view.emb (ix2 r j)) 1).val = win0_2.index t 1 * 128 + 1 * j.val := rfl
  rw [e0, (idx2 t).1] at hR
  have hRow : rowOf (t.val / 16) r = R := Fin.ext (by
    show (32 * (t.val / 16) + r.val) % 64 = R.val
    have := r.isLt; omega)
  rw [hRow] at H
  rw [e1, (idx2 t).2]
  refine ⟨fun hj => ?_, fun hj => ?_, fun hj => ?_, fun hj => ?_, fun hj => ?_, fun hj => ?_, fun hj => ?_⟩
  · obtain rfl : j = 0 := Fin.ext (by show j.val = 0; omega)
    exact H.h0
  · obtain rfl : j = 1 := Fin.ext (by show j.val = 1; omega)
    exact H.h1
  · obtain rfl : j = 2 := Fin.ext (by show j.val = 2; omega)
    exact H.h2
  · obtain rfl : j = 3 := Fin.ext (by show j.val = 3; omega)
    exact H.h3
  · obtain rfl : j = 4 := Fin.ext (by show j.val = 4; omega)
    exact H.h4
  · obtain rfl : j = 5 := Fin.ext (by show j.val = 5; omega)
    exact H.h5
  · obtain rfl : j = 6 := Fin.ext (by show j.val = 6; omega)
    exact H.h6

/-- The two writing-back points. -/
abbrev tA : Fin cfg0.N := ⟨15, by rw [show cfg0.N = 32 from N_0]; decide⟩
abbrev tB : Fin cfg0.N := ⟨31, by rw [show cfg0.N = 32 from N_0]; decide⟩

/-- Their blocks cover the output array: rows 0 to 31 and rows 32 to 63, all 128 columns. -/
theorem covered (i : S64x128.Idx) : ∃ t : Fin cfg0.N, (cfg0.win 2).flush t = true ∧ i ∈ ((cfg0.win 2).blk t).view.set := by
  have h0 : (i 0 : Nat) < 64 := (i 0).isLt
  have h1 : (i 1 : Nat) < 128 := (i 1).isLt
  by_cases h : (i 0 : Nat) < 32
  · refine ⟨tA, (flush0_2 tA).mpr rfl, ?_⟩
    show i ∈ ((View.whole main_v0).slice (win0_2.rect tA)).set
    rw [View.set_slice_whole, Rect.mem_set_unit]
    intro a
    match a with
    | ⟨0, _⟩ =>
      show win0_2.index tA 0 * win0_2.size 0 ≤ (i 0 : Nat) ∧ (i 0 : Nat) < win0_2.index tA 0 * win0_2.size 0 + win0_2.xsize (grid0.coords tA) 0
      rw [show win0_2.index tA 0 * win0_2.size 0 = 0 from by decide +kernel, show win0_2.xsize (grid0.coords tA) 0 = 32 from by decide +kernel]; omega
    | ⟨1, _⟩ =>
      show win0_2.index tA 1 * win0_2.size 1 ≤ (i 1 : Nat) ∧ (i 1 : Nat) < win0_2.index tA 1 * win0_2.size 1 + win0_2.xsize (grid0.coords tA) 1
      rw [show win0_2.index tA 1 * win0_2.size 1 = 0 from by decide +kernel, show win0_2.xsize (grid0.coords tA) 1 = 128 from by decide +kernel]; omega
  · refine ⟨tB, (flush0_2 tB).mpr rfl, ?_⟩
    show i ∈ ((View.whole main_v0).slice (win0_2.rect tB)).set
    rw [View.set_slice_whole, Rect.mem_set_unit]
    intro a
    match a with
    | ⟨0, _⟩ =>
      show win0_2.index tB 0 * win0_2.size 0 ≤ (i 0 : Nat) ∧ (i 0 : Nat) < win0_2.index tB 0 * win0_2.size 0 + win0_2.xsize (grid0.coords tB) 0
      rw [show win0_2.index tB 0 * win0_2.size 0 = 32 from by decide +kernel, show win0_2.xsize (grid0.coords tB) 0 = 32 from by decide +kernel]; omega
    | ⟨1, _⟩ =>
      show win0_2.index tB 1 * win0_2.size 1 ≤ (i 1 : Nat) ∧ (i 1 : Nat) < win0_2.index tB 1 * win0_2.size 1 + win0_2.xsize (grid0.coords tB) 1
      rw [show win0_2.index tB 1 * win0_2.size 1 = 0 from by decide +kernel, show win0_2.xsize (grid0.coords tB) 1 = 128 from by decide +kernel]; omega

/-- So every element of the output array after the run has the property. -/
theorem out_prop (c : Dev nD) (i : S64x128.Idx) : ColProp m c i ((dats m 0 c).arrAt 2 cfg0.N i) :=
  (dats m 0 c).arrAt_forall_of_cover 2 (fun i v => ColProp m c i v)
    (fun t hf y => by
      obtain ⟨r, j, rfl⟩ : ∃ (r : Fin 32) (j : Fin 128), y = ix2 r j := ⟨y 0, y 1, eq_ix2 y⟩
      exact flushed_prop m c t hf r j)
    (covered) i

/-- The kernel's result is the loss of its two arguments. -/
theorem result_eq (c : Dev nD) :
    Pipeline.afterTail₀ cfgs (dats m) 0 (V0 m) [hostOps1, hostOps1_1, hostOps1_2, hostOps1_3, hostOps1_4] c main_v39
      = fun _ => loss (argP m c) (argT m c) := by
  rw [Cert.KernelIdeal.Tail.tail_run m c]
  exact Cert.KernelIdeal.TailRead.tail_eq_loss _ (argP m c) (argT m c)
    (fun R => ((out_prop m c (ix2 R (0 : Fin 128))) R rfl).1 rfl)
    (fun R => ((out_prop m c (ix2 R (1 : Fin 128))) R rfl).2.1 rfl)
    (fun R => ((out_prop m c (ix2 R (2 : Fin 128))) R rfl).2.2.1 rfl)
    (fun R => ((out_prop m c (ix2 R (3 : Fin 128))) R rfl).2.2.2.1 rfl)
    (fun R => ((out_prop m c (ix2 R (4 : Fin 128))) R rfl).2.2.2.2.1 rfl)
    (fun R => ((out_prop m c (ix2 R (5 : Fin 128))) R rfl).2.2.2.2.2.1 rfl)
    (fun R => ((out_prop m c (ix2 R (6 : Fin 128))) R rfl).2.2.2.2.2.2 rfl)

/-- The run, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v39) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v39 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  A per-row agreement count between a hard prediction (p > 1/2) and a hard target (t at its row maximum, or
  nothing when no t is positive), a smoothed soft overlap score replaced by one where every column agrees, and the
  loss: the sum over the 64 rows of one minus the score.

  The reference builds the hard target in full and counts agreements column by column. The kernel makes one pass
  over each row in 16 tiles of 16384 columns, carrying the sums of p, t and p·t, the count of p > 1/2, the running
  maximum of t, and the number of columns attaining it (with and without p > 1/2): when a tile's maximum is
  strictly larger the two counts restart from the tile's, when it ties they add, otherwise they stay. After the last
  tile the counts are those at the row maximum, and the number of agreeing columns is
      262144 - #(p > 1/2) - #(t = max) + 2·#(p > 1/2 and t = max)
  when the maximum is positive and 262144 - #(p > 1/2) otherwise: for indicators a, b in {0, 1} the indicator of
  a = b is 1 - a - b + 2ab. A quotient x / 262144 is one exactly when x is 262144, and some t is positive exactly
  when the row maximum is. Over the extended reals the sums may be regrouped freely, so both programs compute one
  function of the arguments (Proof/Spec.lean); no finiteness of the inputs is used.

  The modules: Spec (the function), Counting and Step (the counting identity, the running maximum's step), Tiles
  (the column tiles), RefRun / RefRead / RefValue (the reference's run and its reading as the function), TileStats
  and TileBridge (the body's pure terms at a row), ScratchGeo / ScratchCases (what each kind of grid point leaves
  in the scratch), Invariant (the scratch after every point), KernelTail / KernelTailRead (the lines after the
  region), KernelValue (the kernel's run read as the function).
-/
import proofs.«110834_j10900626997865_2_alg».proof.Defs
import proofs.«110834_j10900626997865_2_alg».proof.Proof.Gen.Kernel
import proofs.«110834_j10900626997865_2_alg».proof.Proof.Gen.Kernel.Skeleton
import proofs.«110834_j10900626997865_2_alg».proof.Proof.Gen.Kernel.Launch
import proofs.«110834_j10900626997865_2_alg».proof.Proof.Gen.Kernel.Points
import proofs.«110834_j10900626997865_2_alg».proof.Proof.Gen.Kernel.Frame
import proofs.«110834_j10900626997865_2_alg».proof.Proof.Gen.KernelIdeal
import proofs.«110834_j10900626997865_2_alg».proof.Proof.Gen.KernelIdeal.Skeleton
import proofs.«110834_j10900626997865_2_alg».proof.Proof.Gen.KernelIdeal.Launch
import proofs.«110834_j10900626997865_2_alg».proof.Proof.Gen.KernelIdeal.Points
import proofs.«110834_j10900626997865_2_alg».proof.Proof.Gen.KernelIdeal.Frame
import proofs.«110834_j10900626997865_2_alg».proof.Proof.Gen.ReferenceIdeal
import proofs.«110834_j10900626997865_2_alg».proof.Proof.Gen.Pre_finite_inputs
import proofs.«110834_j10900626997865_2_alg».proof.Proof.RefRun
import proofs.«110834_j10900626997865_2_alg».proof.Proof.RefRead
import proofs.«110834_j10900626997865_2_alg».proof.Proof.RefValue
import proofs.«110834_j10900626997865_2_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the loss of the same arguments. -/
theorem algebraic : Cert.algebraic_KernelIdeal_ReferenceIdeal := by
  intro m ρ m' ρ' _ hagree
  refine ⟨fun c => fun _ => RowStats.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v36_eq, Cert.ReferenceIdeal.RefValue.ref_eq_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
